-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S50000x256 : Shape := ⟨2, ![50000, 256]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S50000 32) (main_arg1 : IVec S2x600000 32) (main_arg2 : FVec F S50000x256 .f32) (main_arg3 : FVec F S128x256 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000 : Shape := ⟨1, ![50000]⟩
abbrev S2x600000 : Shape := ⟨2, ![2, 600000]⟩
abbrev S50000x256 : Shape := ⟨2, ![50000, 256]⟩
abbrev S128x256 : Shape := ⟨2, ![128, 256]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S256x128 : Shape := ⟨2, ![256, 128]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S5000x1 : Shape := ⟨2, ![5000, 1]⟩
abbrev S650000x128 : Shape := ⟨2, ![650000, 128]⟩

abbrev nBuf : Space → Nat
  | .hbm => 83
  | .vmem => 20
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x256, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000, .i32⟩
  | .hbm, ⟨14, _⟩ => ⟨S650000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S256x128, .f32⟩
  | .hbm, ⟨32, _⟩ => ⟨S1x128, .f32⟩
  | .hbm, ⟨33, _⟩ => ⟨S50000x128, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000x128, .f32⟩
  | .hbm, ⟨54, _⟩ => ⟨S_, .f32⟩
  | .hbm, ⟨55, _⟩ => ⟨S50000x128, .f32⟩
  | .hbm, ⟨56, _⟩ => ⟨S650000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S128x128, .f32⟩
  | .hbm, ⟨64, _⟩ => ⟨S50000x128, .f32⟩
  | .hbm, ⟨65, _⟩ => ⟨S_, .i32⟩
  | .hbm, ⟨66, _⟩ => ⟨S650000, .i32⟩
  | .hbm, ⟨67, _⟩ => ⟨S650000, .i1⟩
  | .hbm, ⟨68, _⟩ => ⟨S_, .i32⟩
  | .hbm, ⟨69, _⟩ => ⟨S650000, .i32⟩
  | .hbm, ⟨70, _⟩ => ⟨S650000, .i32⟩
  | .hbm, ⟨71, _⟩ => ⟨S650000, .i32⟩
  | .hbm, ⟨72, _⟩ => ⟨S650000x1, .i32⟩
  | .hbm, ⟨73, _⟩ => ⟨S650000x128, .f32⟩
  | .hbm, ⟨74, _⟩ => ⟨S_, .f32⟩
  | .hbm, ⟨75, _⟩ => ⟨S50000x128, .f32⟩
  | .hbm, ⟨76, _⟩ => ⟨S650000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S50000_S50000x1_0 : S50000.BroadcastsInDim S50000x1 (![0] : Fin 1 → Fin S50000x1.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  dot_S5000x256_S256x128_S5000x128_1_0_0_1_n_n_wf : DotDims.WF S5000x256 S256x128 S5000x128 [1] [0] [0] [1] [] []
  gather_S50000x128_S50000x1_S50000x128_1_0_n_n_0_1_1128_wf : GatherDims.WF S50000x128 S50000x1 S50000x128 [1] [0] [] [0] [] 1 ![1, 128]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg2) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000 : Shape := ⟨1, ![50000]⟩
abbrev S2x600000 : Shape := ⟨2, ![2, 600000]⟩
abbrev S50000x256 : Shape := ⟨2, ![50000, 256]⟩
abbrev S128x256 : Shape := ⟨2, ![128, 256]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S50000x1 : Shape := ⟨2, ![50000, 1]⟩
abbrev S256x128 : Shape := ⟨2, ![256, 128]⟩
abbrev S50000x128 : Shape := ⟨2, ![50000, 128]⟩
abbrev S1x128 : Shape := ⟨2, ![1, 128]⟩
abbrev S650000 : Shape := ⟨1, ![650000]⟩
abbrev S650000x1 : Shape := ⟨2, ![650000, 1]⟩
abbrev S650000x128 : Shape := ⟨2, ![650000, 128]⟩

abbrev nBuf : Space → Nat
  | .hbm => 144
  | .vmem => 0
  | .smem => 0
  | _ => 0

abbrev hbmTy0_0 (i : Nat) : BufTy := match i % 128 with
  | 0 => ⟨S50000, .i32⟩
  | 1 => ⟨S2x600000, .i32⟩
  | 2 => ⟨S50000x256, .f32⟩
  | 3 => ⟨S128x256, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x600000, .i32⟩
  | 10 => ⟨S600000, .i32⟩
  | 11 => ⟨S1x600000, .i32⟩
  | 12 => ⟨S600000, .i32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S50000x256, .f32⟩
  | 22 => ⟨S256x128, .f32⟩
  | 23 => ⟨S50000x128, .f32⟩
  | 24 => ⟨S1x128, .f32⟩
  | 25 => ⟨S50000x128, .f32⟩
  | 26 => ⟨S50000x128, .f32⟩
  | 27 => ⟨S50000, .i32⟩
  | 28 => ⟨S650000, .i32⟩
  | 29 => ⟨S650000, .i32⟩
  | 30 => ⟨S128x128, .f32⟩
  | 31 => ⟨S50000x128, .f32⟩
  | 32 => ⟨S_, .f32⟩
  | 33 => ⟨S650000, .f32⟩
  | 34 => ⟨S_, .f32⟩
  | 35 => ⟨S50000, .f32⟩
  | 36 => ⟨S650000x1, .i32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000, .f32⟩
  | 64 => ⟨S650000, .f32⟩
  | 65 => ⟨S_, .i32⟩
  | 66 => ⟨S650000, .i32⟩
  | 67 => ⟨S650000, .i1⟩
  | 68 => ⟨S_, .i32⟩
  | 69 => ⟨S650000, .i32⟩
  | 70 => ⟨S650000, .i32⟩
  | 71 => ⟨S650000, .i32⟩
  | 72 => ⟨S650000x1, .i32⟩
  | 73 => ⟨S650000x128, .f32⟩
  | 74 => ⟨S650000x1, .f32⟩
  | 75 => ⟨S650000x128, .f32⟩
  | 76 => ⟨S650000x128, .f32⟩
  | 77 => ⟨S_, .f32⟩
  | 78 => ⟨S50000x128, .f32⟩
  | 79 => ⟨S650000x1, .i32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000, .i32⟩
  | 88 => ⟨S650000, .i32⟩
  | 89 => ⟨S650000, .i32⟩
  | 90 => ⟨S128x128, .f32⟩
  | 91 => ⟨S50000x128, .f32⟩
  | 92 => ⟨S_, .f32⟩
  | 93 => ⟨S650000, .f32⟩
  | 94 => ⟨S_, .f32⟩
  | 95 => ⟨S50000, .f32⟩
  | 96 => ⟨S650000x1, .i32⟩
  | 97 => ⟨S50000, .f32⟩
  | 98 => ⟨S_, .f32⟩
  | 99 => ⟨S50000, .f32⟩
  | 100 => ⟨S50000, .i1⟩
  | 101 => ⟨S50000, .f32⟩
  | 102 => ⟨S_, .f32⟩
  | 103 => ⟨S_, .f32⟩
  | 104 => ⟨S50000, .f32⟩
  | 105 => ⟨S50000, .f32⟩
  | 106 => ⟨S_, .i32⟩
  | 107 => ⟨S650000, .i32⟩
  | 108 => ⟨S650000, .i1⟩
  | 109 => ⟨S_, .i32⟩
  | 110 => ⟨S650000, .i32⟩
  | 111 => ⟨S650000, .i32⟩
  | 112 => ⟨S650000, .i32⟩
  | 113 => ⟨S650000x1, .i32⟩
  | 114 => ⟨S650000, .f32⟩
  | 115 => ⟨S_, .i32⟩
  | 116 => ⟨S650000, .i32⟩
  | 117 => ⟨S650000, .i1⟩
  | 118 => ⟨S_, .i32⟩
  | 119 => ⟨S650000, .i32⟩
  | 120 => ⟨S650000, .i32⟩
  | 121 => ⟨S650000, .i32⟩
  | 122 => ⟨S650000x1, .i32⟩
  | 123 => ⟨S650000, .f32⟩
  | 124 => ⟨S650000, .f32⟩
  | 125 => ⟨S_, .i32⟩
  | 126 => ⟨S650000, .i32⟩
  | 127 => ⟨S650000, .i1⟩
  | _ => ⟨S50000, .i32⟩

abbrev hbmTy0_1 (i : Nat) : BufTy := match i % 128 with
  | 0 => ⟨S_, .i32⟩
  | 1 => ⟨S650000, .i32⟩
  | 2 => ⟨S650000, .i32⟩
  | 3 => ⟨S650000, .i32⟩
  | 4 => ⟨S650000x1, .i32⟩
  | 5 => ⟨S650000x128, .f32⟩
  | 6 => ⟨S650000x1, .f32⟩
  | 7 => ⟨S650000x128, .f32⟩
  | 8 => ⟨S650000x128, .f32⟩
  | 9 => ⟨S_, .f32⟩
  | 10 => ⟨S50000x128, .f32⟩
  | 11 => ⟨S650000x1, .i32⟩
  | 12 => ⟨S50000x128, .f32⟩
  | 13 => ⟨S1x128, .f32⟩
  | 14 => ⟨S50000x128, .f32⟩
  | 15 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_call2_v0 : Ref sig .tc := ⟨.hbm, 103, rfl⟩
abbrev main_call2_v1 : Ref sig .tc := ⟨.hbm, 104, rfl⟩
abbrev main_v73 : Ref sig .tc := ⟨.hbm, 105, rfl⟩
abbrev main_c_15 : Ref sig .tc := ⟨.hbm, 106, rfl⟩
abbrev main_v74 : Ref sig .tc := ⟨.hbm, 107, rfl⟩
abbrev main_v75 : Ref sig .tc := ⟨.hbm, 108, rfl⟩
abbrev main_c_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_c_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_19 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_21 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S50000_S50000x1_0 : S50000.BroadcastsInDim S50000x1 (![0] : Fin 1 → Fin S50000x1.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S600000_S50000_S650000_d0 : Shape.Concatenates [S600000, S50000] S650000 0
  transposes_S128x128_S128x128_1_0 : S128x128.Transposes [1, 0] S128x128
  bcast_S_S650000 : S_.BroadcastsInDim S650000 (![] : Fin 0 → Fin S650000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  gather_S50000x256_S50000x1_S50000x256_1_0_n_n_0_1_1256_wf : GatherDims.WF S50000x256 S50000x1 S50000x256 [1] [0] [] [0] [] 1 ![1, 256]
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The idealized kernel program's run with its final buffer contents named.

  The program is nine segments: three stretches of host operations, then three times a kernel region followed by a
  stretch of host operations. Every weakly fair execution terminates without a fault, and in every final state each
  buffer that lives outside the kernels' scratch holds the contents obtained by folding the segments over the launch
  memory: a host stretch applies its operations in order, a region replaces its output array by what its grid
  points write back. In particular the result buffer ends at that fold's value and the nine arguments end as launched.
-/
import proofs.«102809_j60404420051602_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every final state holds, at each buffer outside the kernels' scratch,
    the fold of the nine segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the result buffer named: it ends at the fold's value there, and the arguments end as launched. -/
theorem run_result : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)
    (run_all m ρ)

end Cert.KernelIdeal.KernelRun

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Payload.lean ====
/-
  The three kernel bodies read at one element.

  Each body is a matrix product of the loaded row block with the loaded weight block into a zero accumulator,
  followed by one pointwise step: the first adds a bias row, the other two multiply row p by the p-th entry of a
  loaded column (the third first clamps the row block below at zero). At the exact instance the format changes are
  the identity and the product into zero is the plain sum over the contracted index, so at element (p, q):
    body 0 :  (Σ_k x(p,k) · w(k,q)) + b(0,q)
    body 1 :  (Σ_k x(p,k) · w(k,q)) · s(p,0)
    body 2 :  (Σ_k max(x(p,k), 0) · w(k,q)) · s(p,0).
-/
import proofs.«102809_j60404420051602_2_alg».proof.Proof.Gen.KernelIdeal.Skeleton
import proofs.«102809_j60404420051602_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx
open Facts₀ Facts

variable [Facts]

theorem d128_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d128_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem d128_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d128_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000×128 by 128×128 product into the zero accumulator, at (p, q): the sum over the 128 contracted entries. -/
theorem matmul128_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  rw [show matmul dot_S5000x128_S128x128_S5000x128_1_0_0_1_n_n none x w (constant (F := Ideal) S5000x128 .f32 0x00000000#32) (ix2 p q)
        = FloatOps.matmul dot_S5000x128_S128x128_S5000x128_1_0_0_1_n_n none x w (constant (F := Ideal) S5000x128 .f32 0x00000000#32) (ix2 p q) from rfl,
    Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact d128_lhs0 _ _
      | ⟨1, _⟩ => exact (d128_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (d128_rhs0 _ _).trans hk
      | ⟨1, _⟩ => exact d128_rhs1 _ _)
  rw [el, er]

theorem d256_lhs0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d256_lhs1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem d256_rhs0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem d256_rhs1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A 5000×256 by 256×128 product into the zero accumulator, at (p, q): the sum over the 256 contracted entries. -/
theorem matmul256_apply (x : FVec Ideal S5000x256 .bf16) (w : FVec Ideal S256x128 .bf16) (p : Fin 5000) (q : Fin 128) :
    matmul dot_S5000x256_S256x128_S5000x128_1_0_0_1_n_n none x w (constant (F := Ideal) S5000x128 .f32 0x00000000#32) (ix2 p q)
      = ∑ k : Fin 256, x (ix2 p k) * w (ix2 k q) := by
  rw [show matmul dot_S5000x256_S256x128_S5000x128_1_0_0_1_n_n none x w (constant (F := Ideal) S5000x128 .f32 0x00000000#32) (ix2 p q)
        = FloatOps.matmul dot_S5000x256_S256x128_S5000x128_1_0_0_1_n_n none x w (constant (F := Ideal) S5000x128 .f32 0x00000000#32) (ix2 p q) from rfl,
    Ideal.matmul_constant_zero_apply,
    ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ => exact d256_lhs0 _ _
      | ⟨1, _⟩ => exact (d256_lhs1 _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (d256_rhs0 _ _).trans hk
      | ⟨1, _⟩ => exact d256_rhs1 _ _)
  rw [el, er]

/-- Body 0 at (p, q): the projection of row p plus the bias entry q. -/
theorem pay0_apply (x0 : Vec Ideal S5000x256 .f32) (x1 : Vec Ideal S256x128 .f32) (x2 : Vec Ideal S1x128 .f32)
    (p : Fin 5000) (q : Fin 128) :
    k0_pay1 x0 x1 x2 (ix2 p q) = (∑ k : Fin 256, x0 (ix2 p k) * x1 (ix2 k q)) + x2 (ix2 (0 : Fin 1) q) := by
  unfold k0_pay1
  rw [addf_apply, matmul256_apply, shapeCast_self, shapeCast_self, broadcastTo_1b_ab_apply]
  rfl

/-- Body 1 at (p, q): the product of row p with column q of the weights, scaled by the p-th scale entry. -/
theorem pay1_apply (x0 : Vec Ideal S5000x128 .f32) (x1 : Vec Ideal S128x128 .f32) (x2 : Vec Ideal S5000x1 .f32)
    (p : Fin 5000) (q : Fin 128) :
    k1_pay1 x0 x1 x2 (ix2 p q) = (∑ k : Fin 128, x0 (ix2 p k) * x1 (ix2 k q)) * x2 (ix2 p (0 : Fin 1)) := by
  unfold k1_pay1
  rw [mulf_apply, matmul128_apply, shapeCast_self, shapeCast_self, shapeCast_self, Cert.LibKeepdims.broadcastTo_a1_ab_apply]
  rfl

/-- Body 2 at (p, q): as body 1, on the row clamped below at zero. -/
theorem pay2_apply (x0 : Vec Ideal S5000x128 .f32) (x1 : Vec Ideal S128x128 .f32) (x2 : Vec Ideal S5000x1 .f32)
    (p : Fin 5000) (q : Fin 128) :
    k2_pay1 x0 x1 x2 (ix2 p q)
      = (∑ k : Fin 128, max (x0 (ix2 p k)) (Ideal.ofBits .f32 0x00000000#32) * x1 (ix2 k q)) * x2 (ix2 p (0 : Fin 1)) := by
  unfold k2_pay1
  rw [mulf_apply, matmul128_apply, shapeCast_self, shapeCast_self, shapeCast_self, Cert.LibKeepdims.broadcastTo_a1_ab_apply]
  rfl

end Cert.KernelIdeal.Payload

end
-- ==== Proof.Spec.lean ====
/-
  The three kernels' results as functions of whole arrays, index by index.

  projection:      row r, column q ↦ (Σ_k x(r,k) · w(k,q)) + b(0,q)          (256 contracted entries)
  scaledProd:      row r, column q ↦ (Σ_k x(r,k) · w(k,q)) · s(r,0)          (128 contracted entries)
  reluScaledProd:  the same on x clamped below at zero.
-/
import Mathlib
import Idealize.ShloMosaic.PureOps.Ideal
import Idealize.ShloMosaic.Lib.ValueIdx

open scoped BigOperators

noncomputable section

namespace Cert.Spec

open Idealize.ShloMosaic Idealize.ShloMosaic.ValueIdx

/-- The embedding table times the transposed projection weights, plus the bias row. -/
def projection (x : (⟨2, ![50000, 256]⟩ : Shape).Idx → EReal) (w : (⟨2, ![256, 128]⟩ : Shape).Idx → EReal)
    (b : (⟨2, ![1, 128]⟩ : Shape).Idx → EReal) : (⟨2, ![50000, 128]⟩ : Shape).Idx → EReal :=
  fun i => (∑ k : Fin 256, x (ix2 (i 0) k) * w (ix2 k (i 1))) + b (ix2 (0 : Fin 1) (i 1))

theorem projection_apply (x : (⟨2, ![50000, 256]⟩ : Shape).Idx → EReal) (w : (⟨2, ![256, 128]⟩ : Shape).Idx → EReal)
    (b : (⟨2, ![1, 128]⟩ : Shape).Idx → EReal) (r : Fin 50000) (q : Fin 128) :
    projection x w b (ix2 r q) = (∑ k : Fin 256, x (ix2 r k) * w (ix2 k q)) + b (ix2 (0 : Fin 1) q) := rfl

/-- A node table times transposed layer weights, row r scaled by the r-th entry of a column. -/
def scaledProd (x : (⟨2, ![50000, 128]⟩ : Shape).Idx → EReal) (w : (⟨2, ![128, 128]⟩ : Shape).Idx → EReal)
    (s : (⟨2, ![50000, 1]⟩ : Shape).Idx → EReal) : (⟨2, ![50000, 128]⟩ : Shape).Idx → EReal :=
  fun i => (∑ k : Fin 128, x (ix2 (i 0) k) * w (ix2 k (i 1))) * s (ix2 (i 0) (0 : Fin 1))

theorem scaledProd_apply (x : (⟨2, ![50000, 128]⟩ : Shape).Idx → EReal) (w : (⟨2, ![128, 128]⟩ : Shape).Idx → EReal)
    (s : (⟨2, ![50000, 1]⟩ : Shape).Idx → EReal) (r : Fin 50000) (q : Fin 128) :
    scaledProd x w s (ix2 r q) = (∑ k : Fin 128, x (ix2 r k) * w (ix2 k q)) * s (ix2 r (0 : Fin 1)) := rfl

/-- The same after clamping the table below at zero. -/
def reluScaledProd (x : (⟨2, ![50000, 128]⟩ : Shape).Idx → EReal) (w : (⟨2, ![128, 128]⟩ : Shape).Idx → EReal)
    (s : (⟨2, ![50000, 1]⟩ : Shape).Idx → EReal) : (⟨2, ![50000, 128]⟩ : Shape).Idx → EReal :=
  scaledProd (fun i => max (x i) (Ideal.ofBits .f32 0x00000000#32)) w s

theorem reluScaledProd_apply (x : (⟨2, ![50000, 128]⟩ : Shape).Idx → EReal) (w : (⟨2, ![128, 128]⟩ : Shape).Idx → EReal)
    (s : (⟨2, ![50000, 1]⟩ : Shape).Idx → EReal) (r : Fin 50000) (q : Fin 128) :
    reluScaledProd x w s (ix2 r q)
      = (∑ k : Fin 128, max (x (ix2 r k)) (Ideal.ofBits .f32 0x00000000#32) * w (ix2 k q)) * s (ix2 r (0 : Fin 1)) := rfl

end Cert.Spec

end
-- ==== Proof.Region0.lean ====
/-
  What the projection kernel leaves in its output array.

  The embedding table is cut into ten blocks of 5000 rows; grid point t reads rows 5000·t … 5000·t + 4999 of the
  table, the whole transposed weight matrix and the bias row, and writes the same rows of the output. Row r of the
  output therefore ends at (Σ_k x(r,k) · w(k,q)) + b(0,q) for every column q: one function of the arrays the region
  was entered with. Every row lies in exactly one block (row r in block r / 5000), so the blocks cover the array.
-/
import proofs.«102809_j60404420051602_2_alg».proof.Proof.Gen.KernelIdeal.Frame
import proofs.«102809_j60404420051602_2_alg».proof.Proof.Payload
import proofs.«102809_j60404420051602_2_alg».proof.Proof.Spec

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the weights and the bias at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row of the array that row p of block t is. -/
abbrev rowAt (t : Fin cfg0.N) (p : Fin 5000) : Fin 50000 := ⟨t.val * 5000 + p.val, by have ht : t.val < 10 := t.isLt; have hp := p.isLt; show _ < 50000; omega⟩

theorem blk0_read (c : Dev nD) (t : Fin cfg0.N) (p : Fin 5000) (k : Fin 256) :
    iblk0 V c 0 t (ix2 p k) = V c main_arg2 (ix2 (rowAt t p) k) := by
  obtain ⟨e0, e1, -⟩ := idx_facts t
  show V c main_arg2 (((cfg0.win 0).blk t).view.emb (ix2 p k)) = V c main_arg2 (ix2 (rowAt t p) k)
  refine congrArg (V c main_arg2) (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

theorem blk1_read (c : Dev nD) (t : Fin cfg0.N) (k : Fin 256) (q : Fin 128) :
    iblk0 V c 1 t (ix2 k q) = V c main_v16 (ix2 k q) := by
  obtain ⟨-, -, e0, e1, -⟩ := idx_facts t
  show V c main_v16 (((cfg0.win 1).blk t).view.emb (ix2 k q)) = V c main_v16 (ix2 k q)
  refine congrArg (V c main_v16) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

theorem blk2_read (c : Dev nD) (t : Fin cfg0.N) (q : Fin 128) :
    iblk0 V c 2 t (ix2 (0 : Fin 1) q) = V c main_v17 (ix2 (0 : Fin 1) q) := by
  obtain ⟨-, -, -, -, e0, e1, -⟩ := idx_facts t
  show V c main_v17 (((cfg0.win 2).blk t).view.emb (ix2 (0 : Fin 1) q)) = V c main_v17 (ix2 (0 : Fin 1) q)
  refine congrArg (V c main_v17) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

theorem out_emb (t : Fin cfg0.N) (p : Fin 5000) (q : Fin 128) :
    ((cfg0.win 3).blk t).view.emb (ix2 p q) = ix2 (rowAt t p) q := by
  obtain ⟨-, -, -, -, -, -, e0, e1⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- What grid point t writes back is block t of the projection of the arrays the region was entered with. -/
theorem flushed_eq (c : Dev nD) (t : Fin cfg0.N) :
    (dat0 V c).flushed 3 t = ((cfg0.win 3).blk t).view.read (Elt Ideal) (projection (V c main_arg2) (V c main_v16) (V c main_v17)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = projection (V c main_arg2) (V c main_v16) (V c main_v17) (((cfg0.win 3).blk t).view.emb (ix2 p q))
  rw [out_emb t p q, projection_apply]
  refine (Payload.pay0_apply _ _ _ p q).trans ?_
  rw [blk2_read V c t q]
  refine congrArg (· + V c main_v17 (ix2 (0 : Fin 1) q)) (Finset.sum_congr rfl fun k _ => ?_)
  rw [blk0_read V c t p k, blk1_read V c t k q]

/-- An index is in point t's output block iff its coordinates are in the block's ranges. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Row r lies in block r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by show _ < 10; omega⟩, flush0_3 _, ?_⟩
  rw [mem_blk]
  obtain ⟨-, -, -, -, -, -, e0, e1⟩ := idx_facts ⟨(i 0).val / 5000, by show _ < 10; omega⟩
  intro a
  match a with
  | ⟨0, _⟩ =>
    show win0_3.index ⟨(i 0).val / 5000, _⟩ (0 : Fin 2) * 5000 ≤ (i 0).val ∧ (i 0).val < win0_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, _⟩ (1 : Fin 2) * 128 ≤ (i 1).val ∧ (i 1).val < win0_3.index ⟨(i 0).val / 5000, _⟩ (1 : Fin 2) * 128 + 128
    rw [e1]; omega

/-- The output array after the region: the projection of the arrays the region was entered with. -/
theorem final (c : Dev nD) :
    (dat0 V c).arrAt 3 cfg0.N = projection (V c main_arg2) (V c main_v16) (V c main_v17) :=
  (dat0 V c).arrAt_eq_of_cover 3 _ (fun t _ => flushed_eq V c t) cover

end Cert.KernelIdeal.Region0

end
-- ==== Proof.Region1.lean ====
/-
  What the first row-scaled product kernel leaves in its output array.

  The array is cut into ten blocks of 5000 rows; grid point t reads rows 5000·t … 5000·t + 4999 of the input and of
  the scale column, the whole weight matrix, and writes the same rows of the output. Row r of the output therefore
  ends at (Σ_k x(r,k) · w(k,q)) · s(r,0) for every column q: one function of the arrays the region was entered with.
  Every row lies in exactly one block (row r in block r / 5000), so the blocks cover the array.
-/
import proofs.«102809_j60404420051602_2_alg».proof.Proof.Gen.KernelIdeal.Frame
import proofs.«102809_j60404420051602_2_alg».proof.Proof.Payload
import proofs.«102809_j60404420051602_2_alg».proof.Proof.Spec

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the weights at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The row of the array that row p of block t is. -/
abbrev rowAt (t : Fin cfg1.N) (p : Fin 5000) : Fin 50000 := ⟨t.val * 5000 + p.val, by have ht : t.val < 10 := t.isLt; have hp := p.isLt; show _ < 50000; omega⟩

theorem blk0_read (c : Dev nD) (t : Fin cfg1.N) (p : Fin 5000) (k : Fin 128) :
    iblk1 V c 0 t (ix2 p k) = V c main_v25 (ix2 (rowAt t p) k) := by
  obtain ⟨e0, e1, -⟩ := idx_facts t
  show V c main_v25 (((cfg1.win 0).blk t).view.emb (ix2 p k)) = V c main_v25 (ix2 (rowAt t p) k)
  refine congrArg (V c main_v25) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem blk1_read (c : Dev nD) (t : Fin cfg1.N) (k : Fin 128) (q : Fin 128) :
    iblk1 V c 1 t (ix2 k q) = V c main_v26 (ix2 k q) := by
  obtain ⟨-, -, e0, e1, -⟩ := idx_facts t
  show V c main_v26 (((cfg1.win 1).blk t).view.emb (ix2 k q)) = V c main_v26 (ix2 k q)
  refine congrArg (V c main_v26) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

theorem blk2_read (c : Dev nD) (t : Fin cfg1.N) (p : Fin 5000) :
    iblk1 V c 2 t (ix2 p (0 : Fin 1)) = V c main_v15 (ix2 (rowAt t p) (0 : Fin 1)) := by
  obtain ⟨-, -, -, -, e0, e1, -⟩ := idx_facts t
  show V c main_v15 (((cfg1.win 2).blk t).view.emb (ix2 p (0 : Fin 1))) = V c main_v15 (ix2 (rowAt t p) (0 : Fin 1))
  refine congrArg (V c main_v15) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

theorem out_emb (t : Fin cfg1.N) (p : Fin 5000) (q : Fin 128) :
    ((cfg1.win 3).blk t).view.emb (ix2 p q) = ix2 (rowAt t p) q := by
  obtain ⟨-, -, -, -, -, -, e0, e1⟩ := idx_facts t
  refine funext fun a => Fin.ext ?_
  match a with
  | ⟨0, _⟩ => show win1_3.index t (0 : Fin 2) * 5000 + 1 * p.val = t.val * 5000 + p.val; omega
  | ⟨1, _⟩ => show win1_3.index t (1 : Fin 2) * 128 + 1 * q.val = q.val; omega

/-- What grid point t writes back is block t of the row-scaled product of the arrays the region was entered with. -/
theorem flushed_eq (c : Dev nD) (t : Fin cfg1.N) :
    (dat1 V c).flushed 3 t = ((cfg1.win 3).blk t).view.read (Elt Ideal) (scaledProd (V c main_v25) (V c main_v26) (V c main_v15)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = scaledProd (V c main_v25) (V c main_v26) (V c main_v15) (((cfg1.win 3).blk t).view.emb (ix2 p q))
  rw [out_emb t p q, scaledProd_apply]
  refine (Payload.pay1_apply _ _ _ p q).trans ?_
  rw [blk2_read V c t p]
  refine congrArg (· * V c main_v15 (ix2 (rowAt t p) (0 : Fin 1))) (Finset.sum_congr rfl fun k _ => ?_)
  rw [blk0_read V c t p k, blk1_read V c t k q]

/-- An index is in point t's output block iff its coordinates are in the block's ranges. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v27).slice (win1_3.rect t)).set ↔ _
  rw [View.set_slice_whole, Rect.mem_set_unit]
  exact Iff.rfl

/-- Row r lies in block r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  refine ⟨⟨(i 0).val / 5000, by show _ < 10; omega⟩, flush1_3 _, ?_⟩
  rw [mem_blk]
  obtain ⟨-, -, -, -, -, -, e0, e1⟩ := idx_facts ⟨(i 0).val / 5000, by show _ < 10; omega⟩
  intro a
  match a with
  | ⟨0, _⟩ =>
    show win1_3.index ⟨(i 0).val / 5000, _⟩ (0 : Fin 2) * 5000 ≤ (i 0).val ∧ (i 0).val < win1_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, _⟩ (1 : Fin 2) * 128 ≤ (i 1).val ∧ (i 1).val < win1_3.index ⟨(i 0).val / 5000, _⟩ (1 : Fin 2) * 128 + 128
    rw [e1]; omega

/-- The output array after the region: the row-scaled product of the arrays the region was entered with. -/
theorem final (c : Dev nD) :
    (dat1 V c).arrAt 3 cfg1.N = scaledProd (V c main_v25) (V c main_v26) (V c main_v15) :=
  (dat1 V c).arrAt_eq_of_cover 3 _ (fun t _ => flushed_eq V c t) cover

end Cert.KernelIdeal.Region1

end
-- ==== Proof.Region2.lean ====
/-
  What the second row-scaled product kernel leaves in its output array.

  As for the first one, with the input clamped below at zero before the product: row r of the output ends at
  (Σ_k max(x(r,k), 0) · w(k,q)) · s(r,0) for every column q, and the ten row blocks cover the array.
-/
import proofs.«102809_j60404420051602_2_alg».proof.Proof.Gen.KernelIdeal.Frame
import proofs.«102809_j60404420051602_2_alg».proof.Proof.Payload
import proofs.«102809_j60404420051602_2_alg».proof.Proof.Spec

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The row of the array that row p of block t is. -/
abbrev rowAt (t : Fin cfg2.N) (p : Fin 5000) : Fin 50000 := ⟨t.val * 5000 + p.val, by have ht : t.val < 10 := t.isLt; have hp := p.isLt; show _ < 50000; omega⟩

theorem blk0_read (c : Dev nD) (t : Fin cfg2.N) (p : Fin 5000) (k : Fin 128) :
    iblk2 V c 0 t (ix2 p k) = V c main_v42 (ix2 (rowAt t p) k) := by
  obtain ⟨e0, e1, -⟩ := idx_facts t
  show V c main_v42 (((cfg2.win 0).blk t).view.emb (ix2 p k)) = V c main_v42 (ix2 (rowAt t p) k)
  refine congrArg (V c main_v42) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem blk1_read (c : Dev nD) (t : Fin cfg2.N) (k : Fin 128) (q : Fin 128) :
    iblk2 V c 1 t (ix2 k q) = V c main_v43 (ix2 k q) := by
  obtain ⟨-, -, e0, e1, -⟩ := idx_facts t
  show V c main_v43 (((cfg2.win 1).blk t).view.emb (ix2 k q)) = V c main_v43 (ix2 k q)
  refine congrArg (V c main_v43) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

theorem blk2_read (c : Dev nD) (t : Fin cfg2.N) (p : Fin 5000) :
    iblk2 V c 2 t (ix2 p (0 : Fin 1)) = V c main_v15 (ix2 (rowAt t p) (0 : Fin 1)) := by
  obtain ⟨-, -, -, -, e0, e1, -⟩ := idx_facts t
  show V c main_v15 (((cfg2.win 2).blk t).view.emb (ix2 p (0 : Fin 1))) = V c main_v15 (ix2 (rowAt t p) (0 : Fin 1))
  refine congrArg (V c main_v15) (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * 0 = 0; omega

theorem out_emb (t : Fin cfg2.N) (p : Fin 5000) (q : Fin 128) :
    ((cfg2.win 3).blk t).view.emb (ix2 p q) = ix2 (rowAt t p) q := by
  obtain ⟨-, -, -, -, -, -, e0, e1⟩ := idx_facts t
  refine funext fun a => Fin.ext ?_
  match a with
  | ⟨0, _⟩ => show win2_3.index t (0 : Fin 2) * 5000 + 1 * p.val = t.val * 5000 + p.val; omega
  | ⟨1, _⟩ => show win2_3.index t (1 : Fin 2) * 128 + 1 * q.val = q.val; omega

/-- What grid point t writes back is block t of the row-scaled product of the arrays the region was entered with. -/
theorem flushed_eq (c : Dev nD) (t : Fin cfg2.N) :
    (dat2 V c).flushed 3 t = ((cfg2.win 3).blk t).view.read (Elt Ideal) (reluScaledProd (V c main_v42) (V c main_v43) (V c main_v15)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = reluScaledProd (V c main_v42) (V c main_v43) (V c main_v15) (((cfg2.win 3).blk t).view.emb (ix2 p q))
  rw [out_emb t p q, reluScaledProd_apply]
  refine (Payload.pay2_apply _ _ _ p q).trans ?_
  rw [blk2_read V c t p]
  refine congrArg (· * V c main_v15 (ix2 (rowAt t p) (0 : Fin 1))) (Finset.sum_congr rfl fun k _ => ?_)
  rw [blk0_read V c t p k, blk1_read V c t k q]

/-- An index is in point t's output block iff its coordinates are in the block's ranges. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v44).slice (win2_3.rect t)).set ↔ _
  rw [View.set_slice_whole, Rect.mem_set_unit]
  exact Iff.rfl

/-- Row r lies in block r / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  refine ⟨⟨(i 0).val / 5000, by show _ < 10; omega⟩, flush2_3 _, ?_⟩
  rw [mem_blk]
  obtain ⟨-, -, -, -, -, -, e0, e1⟩ := idx_facts ⟨(i 0).val / 5000, by show _ < 10; omega⟩
  intro a
  match a with
  | ⟨0, _⟩ =>
    show win2_3.index ⟨(i 0).val / 5000, _⟩ (0 : Fin 2) * 5000 ≤ (i 0).val ∧ (i 0).val < win2_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, _⟩ (1 : Fin 2) * 128 ≤ (i 1).val ∧ (i 1).val < win2_3.index ⟨(i 0).val / 5000, _⟩ (1 : Fin 2) * 128 + 128
    rw [e1]; omega

/-- The output array after the region: the row-scaled product of the arrays the region was entered with. -/
theorem final (c : Dev nD) :
    (dat2 V c).arrAt 3 cfg2.N = reluScaledProd (V c main_v42) (V c main_v43) (V c main_v15) :=
  (dat2 V c).arrAt_eq_of_cover 3 _ (fun t _ => flushed_eq V c t) cover

end Cert.KernelIdeal.Region2

end
-- ==== Proof.KTerms.lean ====
/-
  The idealized kernel program's result as a term of its nine arguments.

  From the edge list: the source and target index arrays (the listed edges followed by one self-loop per node), the
  degree of every node (ones added up at the targets), its inverse square root (0 where the degree is not positive)
  and that as a column. The embedding table is projected and its rows gathered at the node tokens. Each of the two
  layers multiplies by its weights and scales row r by the column's entry r (the second first clamps its input below
  at zero), gathers the rows at the sources, adds them up at the targets, scales node n's sum by the column's entry n
  and adds the bias.
-/
import proofs.«102809_j60404420051602_2_alg».proof.KernelIdeal
import proofs.«102809_j60404420051602_2_alg».proof.Proof.Gen.KernelIdeal
import proofs.«102809_j60404420051602_2_alg».proof.Proof.Spec
import Idealize.ShloMosaic.PureOps.Ideal

noncomputable section

namespace Cert.KernelIdeal.KTerms

open Cert.KernelIdeal Idealize.ShloMosaic Idealize.ShloMosaic.TcCoe
open Facts₀ Facts

/-! ## The shared host terms -/

/-- The source indices: row 0 of the edge list, then one self-loop per node. -/
def srcIdx (e : IVec S2x600000 32) : IVec S650000 32 :=
  concatenate S650000 0 [⟨S600000, shapeCast _ (extractStridedSlice S1x600000 ![0, 0] e slices_S2x600000_S1x600000_0_0) shapeCasts_S1x600000_S600000⟩, ⟨S50000, iotaInDim S50000 32 0⟩] concatenates_S600000_S50000_S650000_d0

/-- The target indices: row 1 of the edge list, then one self-loop per node. -/
def dstIdx (e : IVec S2x600000 32) : IVec S650000 32 :=
  concatenate S650000 0 [⟨S600000, shapeCast _ (extractStridedSlice S1x600000 ![1, 0] e slices_S2x600000_S1x600000_1_0) shapeCasts_S1x600000_S600000⟩, ⟨S50000, iotaInDim S50000 32 0⟩] concatenates_S600000_S50000_S650000_d0

/-- The degrees: ones added up at the targets. -/
def degree (e : IVec S2x600000 32) : FVec Ideal S50000 .f32 :=
  Host.scatterAdd scatter_S50000_S650000x1_S650000_n_0_0_1 (broadcastInDim S50000 ![] bcast_S_S50000 (constant (F := Ideal) S_ .f32 0x00000000#32))
    (broadcastInDim S650000x1 ![0] bcast_S650000_S650000x1_0 (dstIdx e)) (broadcastInDim S650000 ![] bcast_S_S650000 (constant (F := Ideal) S_ .f32 0x3F800000#32))

/-- The inverse square roots of the degrees, 0 where the degree is not positive. -/
def invSqrtDeg (e : IVec S2x600000 32) : FVec Ideal S50000 .f32 :=
  select (cmpf .ogt (degree e) (broadcastInDim S50000 ![] bcast_S_S50000 (constant (F := Ideal) S_ .f32 0x00000000#32))) (Host.rsqrt (degree e))
    (broadcastInDim S50000 ![] bcast_S_S50000 (id (constant (F := Ideal) S_ .f32 0x00000000#32)))

/-- The same as a column. -/
def invSqrtDegCol (e : IVec S2x600000 32) : FVec Ideal S50000x1 .f32 := shapeCast _ (invSqrtDeg e) shapeCasts_S50000_S50000x1

/-- Indices along the edges with negative ones wrapped by the node count, as a column of start indices. -/
def wrapEdges (s : IVec S650000 32) : IVec S650000x1 32 :=
  broadcastInDim S650000x1 ![0] bcast_S650000_S650000x1_0
    (select (cmpi .slt s (broadcastInDim S650000 ![] bcast_S_S650000 (constantI S_ 32 0#32))) (addi s (broadcastInDim S650000 ![] bcast_S_S650000 (constantI S_ 32 50000#32))) s)

/-- The node tokens with negative ones wrapped by the vocabulary size, as a column of start indices. -/
def wrapTokens (t : IVec S50000 32) : IVec S50000x1 32 :=
  broadcastInDim S50000x1 ![0] bcast_S50000_S50000x1_0
    (select (cmpi .slt t (broadcastInDim S50000 ![] bcast_S_S50000 (constantI S_ 32 0#32))) (addi t (broadcastInDim S50000 ![] bcast_S_S50000 (constantI S_ 32 50000#32))) t)

/-- What follows a layer's kernel: gather the scaled rows at the sources, add them up at the targets, scale node n's
    sum by D2(n), add the bias. -/
def aggregate (xs : FVec Ideal S50000x128 .f32) (s d : IVec S650000 32) (D2 : FVec Ideal S50000x1 .f32) (b : FVec Ideal S128 .f32) :
    FVec Ideal S50000x128 .f32 :=
  addf (mulf (Host.scatterAdd scatter_S50000x128_S650000x1_S650000x128_1_0_0_1
        (broadcastInDim S50000x128 ![] bcast_S_S50000x128 (constant (F := Ideal) S_ .f32 0x00000000#32))
        (broadcastInDim S650000x1 ![0] bcast_S650000_S650000x1_0 d)
        (Host.gather gather_S50000x128_S650000x1_S650000x128_1_0_n_n_0_1_1128 xs (wrapEdges s)))
      (broadcastInDim S50000x128 ![0, 1] bcast_S50000x1_S50000x128_0_1 D2))
    (broadcastInDim S50000x128 ![0, 1] bcast_S1x128_S50000x128_0_1 (broadcastInDim S1x128 ![1] bcast_S128_S1x128_1 b))

/-- The whole result as a term of the nine arguments. -/
def result (a0 : IVec S50000 32) (a1 : IVec S2x600000 32) (a2 : FVec Ideal S50000x256 .f32) (a3 : FVec Ideal S128x256 .f32)
    (a4 : FVec Ideal S128 .f32) (a5 : FVec Ideal S128x128 .f32) (a6 : FVec Ideal S128 .f32) (a7 : FVec Ideal S128x128 .f32)
    (a8 : FVec Ideal S128 .f32) : FVec Ideal S50000x128 .f32 :=
  aggregate
    (Spec.reluScaledProd
      (aggregate
        (Spec.scaledProd
          (Host.gather gather_S50000x128_S50000x1_S50000x128_1_0_n_n_0_1_1128
            (Spec.projection a2 (transpose S256x128 [1, 0] a3 transposes_S128x256_S256x128_1_0) (shapeCast _ a4 shapeCasts_S128_S1x128))
            (wrapTokens a0))
          (transpose S128x128 [1, 0] a5 transposes_S128x128_S128x128_1_0) (invSqrtDegCol a1))
        (srcIdx a1) (dstIdx a1) (invSqrtDegCol a1) a6)
      (transpose S128x128 [1, 0] a7 transposes_S128x128_S128x128_1_0) (invSqrtDegCol a1))
    (srcIdx a1) (dstIdx a1) (invSqrtDegCol a1) a8

end Cert.KernelIdeal.KTerms

end
-- ==== Proof.KValue.lean ====
/-
  The idealized kernel program's result as one term of its arguments.

  The program computes, from the edge list, the source and target index arrays s and d (the listed edges followed by
  one self-loop per node), the degree of every node (the number of edges whose target it is) and its inverse square
  root D (0 where the degree is not positive), as a column D2. It projects the embedding table, x · Wᵀ + bias, with
  the first kernel, and gathers the projected rows at the node tokens. Each of the two layers then multiplies by the
  layer's weights and scales row r by D2(r) with a kernel (the second first clamps its input below at zero),
  gathers the rows at the sources, adds them up at the targets, scales node n's sum by D2(n) and adds the bias.
  Below, the buffer contents at each of the nine segment boundaries are read one after the other, from the launch
  memory up to the result.
-/
import proofs.«102809_j60404420051602_2_alg».proof.Proof.Gen.KernelIdeal.Frame
import proofs.«102809_j60404420051602_2_alg».proof.Proof.Region0
import proofs.«102809_j60404420051602_2_alg».proof.Proof.Region1
import proofs.«102809_j60404420051602_2_alg».proof.Proof.Region2
import proofs.«102809_j60404420051602_2_alg».proof.Proof.KTerms
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL Idealize.SL.Sem
open Facts₀ Facts
open Cert.KernelIdeal.KTerms

/-! ## The boundaries -/

variable (m : (ℓ : Loc nD τ sig) → Buf (Elt Ideal) ℓ) (ρ : Dev nD → PrngReg) (c : Dev nD)

/-- A buffer that no operation of a stretch writes keeps its contents over the stretch. -/
macro "not_written" ops:ident : tactic => `(tactic| (
  refine StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))))

/-- Reads a buffer a stretch computes: unfolds the stretches down to the launch memory and evaluates them. -/
macro "read_entry" : tactic => `(tactic| (
  dsimp only [W3, W2, W1, W0]
  simp only [hostOps0, hostOps0_1, hostOps0_2]
  after_results))

/-! ### Boundary 3: the first region's entry, from the launch memory -/

theorem w3_arg0 : W3 m ρ c (Proc.devRef .tc main_arg0) = m ((c : Thread nD τ).loc main_arg0) :=
  calc W3 m ρ c (Proc.devRef .tc main_arg0)
    _ = W2 m ρ c (Proc.devRef .tc main_arg0) := by not_written hostOps0_2
    _ = W1 m ρ c (Proc.devRef .tc main_arg0) := by not_written hostOps0_1
    _ = W0 m ρ c (Proc.devRef .tc main_arg0) := by not_written hostOps0
    _ = _ := rfl
theorem w3_arg2 : W3 m ρ c (Proc.devRef .tc main_arg2) = m ((c : Thread nD τ).loc main_arg2) :=
  calc W3 m ρ c (Proc.devRef .tc main_arg2)
    _ = W2 m ρ c (Proc.devRef .tc main_arg2) := by not_written hostOps0_2
    _ = W1 m ρ c (Proc.devRef .tc main_arg2) := by not_written hostOps0_1
    _ = W0 m ρ c (Proc.devRef .tc main_arg2) := by not_written hostOps0
    _ = _ := rfl
theorem w3_arg5 : W3 m ρ c (Proc.devRef .tc main_arg5) = m ((c : Thread nD τ).loc main_arg5) :=
  calc W3 m ρ c (Proc.devRef .tc main_arg5)
    _ = W2 m ρ c (Proc.devRef .tc main_arg5) := by not_written hostOps0_2
    _ = W1 m ρ c (Proc.devRef .tc main_arg5) := by not_written hostOps0_1
    _ = W0 m ρ c (Proc.devRef .tc main_arg5) := by not_written hostOps0
    _ = _ := rfl
theorem w3_arg6 : W3 m ρ c (Proc.devRef .tc main_arg6) = m ((c : Thread nD τ).loc main_arg6) :=
  calc W3 m ρ c (Proc.devRef .tc main_arg6)
    _ = W2 m ρ c (Proc.devRef .tc main_arg6) := by not_written hostOps0_2
    _ = W1 m ρ c (Proc.devRef .tc main_arg6) := by not_written hostOps0_1
    _ = W0 m ρ c (Proc.devRef .tc main_arg6) := by not_written hostOps0
    _ = _ := rfl
theorem w3_arg7 : W3 m ρ c (Proc.devRef .tc main_arg7) = m ((c : Thread nD τ).loc main_arg7) :=
  calc W3 m ρ c (Proc.devRef .tc main_arg7)
    _ = W2 m ρ c (Proc.devRef .tc main_arg7) := by not_written hostOps0_2
    _ = W1 m ρ c (Proc.devRef .tc main_arg7) := by not_written hostOps0_1
    _ = W0 m ρ c (Proc.devRef .tc main_arg7) := by not_written hostOps0
    _ = _ := rfl
theorem w3_arg8 : W3 m ρ c (Proc.devRef .tc main_arg8) = m ((c : Thread nD τ).loc main_arg8) :=
  calc W3 m ρ c (Proc.devRef .tc main_arg8)
    _ = W2 m ρ c (Proc.devRef .tc main_arg8) := by not_written hostOps0_2
    _ = W1 m ρ c (Proc.devRef .tc main_arg8) := by not_written hostOps0_1
    _ = W0 m ρ c (Proc.devRef .tc main_arg8) := by not_written hostOps0
    _ = _ := rfl

theorem w3_v5 : W3 m ρ c (Proc.devRef .tc main_v5) = srcIdx (m ((c : Thread nD τ).loc main_arg1)) := by
  read_entry <;> rfl
theorem w3_v6 : W3 m ρ c (Proc.devRef .tc main_v6) = dstIdx (m ((c : Thread nD τ).loc main_arg1)) := by
  read_entry <;> rfl
/-- The target indices after the first stretch. -/
theorem w1_v6 : W1 m ρ c (Proc.devRef .tc main_v6) = dstIdx (m ((c : Thread nD τ).loc main_arg1)) := by
  dsimp only [W1, W0]; simp only [hostOps0]; after_results <;> rfl

set_option maxHeartbeats 4000000 in
/-- The degrees after the first stretch: the stretch adds ones up at the target indices it has just computed. -/
theorem w1_v10 : W1 m ρ c (Proc.devRef .tc main_v10) = degree (m ((c : Thread nD τ).loc main_arg1)) := by
  unfold degree
  rw [← w1_v6 m ρ c]
  dsimp only [W1, W0]; simp only [hostOps0]; after_results <;> rfl

set_option maxHeartbeats 4000000 in
/-- Which degrees are positive, after the first stretch. -/
theorem w1_v12 : W1 m ρ c (Proc.devRef .tc main_v12)
    = cmpf (F := Ideal) .ogt (degree (m ((c : Thread nD τ).loc main_arg1))) (broadcastInDim S50000 ![] Facts₀.bcast_S_S50000 (constant (F := Ideal) S_ .f32 0x00000000#32)) := by
  rw [← w1_v10 m ρ c]
  dsimp only [W1, W0]; simp only [hostOps0]; after_results <;> rfl

set_option maxHeartbeats 4000000 in
/-- The inverse square roots of the degrees, after the first stretch. -/
theorem w1_v13 : W1 m ρ c (Proc.devRef .tc main_v13) = Host.rsqrt (degree (m ((c : Thread nD τ).loc main_arg1))) := by
  rw [← w1_v10 m ρ c]
  dsimp only [W1, W0]; simp only [hostOps0]; after_results <;> rfl

/-- The zero constant the guarded inverse square root falls back to. -/
theorem w1_cst_2 : W1 m ρ c (Proc.devRef .tc main_cst_2) = constant (F := Ideal) S_ .f32 0x00000000#32 := by
  dsimp only [W1, W0]; simp only [hostOps0]; after_results <;> rfl

/-- The guarded inverse square roots, after the second stretch. -/
theorem w2_v14 : W2 m ρ c (Proc.devRef .tc main_v14) = invSqrtDeg (m ((c : Thread nD τ).loc main_arg1)) := by
  have h12 := w1_v12 m ρ c
  have h13 := w1_v13 m ρ c
  have hc := w1_cst_2 m ρ c
  unfold invSqrtDeg
  rw [← h12, ← h13, ← hc]
  dsimp only [W2]
  generalize W1 m ρ c = V1
  simp only [hostOps0_1]
  after_results <;> rfl

theorem w3_v15 : W3 m ρ c (Proc.devRef .tc main_v15) = invSqrtDegCol (m ((c : Thread nD τ).loc main_arg1)) := by
  have h14 := w2_v14 m ρ c
  unfold invSqrtDegCol
  rw [← h14]
  dsimp only [W3]
  generalize W2 m ρ c = V2
  simp only [hostOps0_2]
  after_results <;> rfl
theorem w3_v16 : W3 m ρ c (Proc.devRef .tc main_v16) = transpose S256x128 [1, 0] (m ((c : Thread nD τ).loc main_arg3)) Facts₀.transposes_S128x256_S256x128_1_0 := by
  read_entry <;> rfl
theorem w3_v17 : W3 m ρ c (Proc.devRef .tc main_v17) = shapeCast _ (m ((c : Thread nD τ).loc main_arg4)) Facts₀.shapeCasts_S128_S1x128 := by
  read_entry <;> rfl

/-! ### Boundary 4: after the first region -/

theorem w4_v18 : W4 m ρ c (Proc.devRef .tc main_v18)
    = Spec.projection (m ((c : Thread nD τ).loc main_arg2)) (transpose S256x128 [1, 0] (m ((c : Thread nD τ).loc main_arg3)) Facts₀.transposes_S128x256_S256x128_1_0)
        (shapeCast _ (m ((c : Thread nD τ).loc main_arg4)) Facts₀.shapeCasts_S128_S1x128) := by
  refine (W4_arr m ρ c 3).trans ((Region0.final (V3 m ρ) c).trans ?_)
  show Spec.projection (W3 m ρ c (Proc.devRef .tc main_arg2)) (W3 m ρ c (Proc.devRef .tc main_v16)) (W3 m ρ c (Proc.devRef .tc main_v17)) = _
  rw [w3_arg2, w3_v16, w3_v17]

/-! ### Boundary 5: the second region's entry -/

theorem w5_v25 : W5 m ρ c (Proc.devRef .tc main_v25)
    = Host.gather gather_S50000x128_S50000x1_S50000x128_1_0_n_n_0_1_1128 (W4 m ρ c (Proc.devRef .tc main_v18)) (wrapTokens (W4 m ρ c (Proc.devRef .tc main_arg0))) := by
  dsimp only [W5]; simp only [hostOps1]; after_results <;> rfl
theorem w5_v26 : W5 m ρ c (Proc.devRef .tc main_v26) = transpose S128x128 [1, 0] (W4 m ρ c (Proc.devRef .tc main_arg5)) Facts₀.transposes_S128x128_S128x128_1_0 := by
  dsimp only [W5]; simp only [hostOps1]; after_results <;> rfl
/-! ### Boundary 6: after the second region -/

theorem w6_v27 : W6 m ρ c (Proc.devRef .tc main_v27)
    = Spec.scaledProd (W5 m ρ c (Proc.devRef .tc main_v25)) (W5 m ρ c (Proc.devRef .tc main_v26)) (W5 m ρ c (Proc.devRef .tc main_v15)) :=
  (W6_arr m ρ c 3).trans (Region1.final (V5 m ρ) c)

/-! ### Boundary 7: the third region's entry -/

set_option maxHeartbeats 4000000 in
theorem w7_v42 : W7 m ρ c (Proc.devRef .tc main_v42)
    = aggregate (W6 m ρ c (Proc.devRef .tc main_v27)) (W6 m ρ c (Proc.devRef .tc main_v5)) (W6 m ρ c (Proc.devRef .tc main_v6))
        (W6 m ρ c (Proc.devRef .tc main_v15)) (W6 m ρ c (Proc.devRef .tc main_arg6)) := by
  unfold aggregate wrapEdges
  dsimp only [W7]; simp only [hostOps2]; after_results_simp <;> rfl
theorem w7_v43 : W7 m ρ c (Proc.devRef .tc main_v43) = transpose S128x128 [1, 0] (W6 m ρ c (Proc.devRef .tc main_arg7)) Facts₀.transposes_S128x128_S128x128_1_0 := by
  dsimp only [W7]; simp only [hostOps2]; after_results <;> rfl

/-! ### Boundary 8: after the third region -/

theorem w8_v44 : W8 m ρ c (Proc.devRef .tc main_v44)
    = Spec.reluScaledProd (W7 m ρ c (Proc.devRef .tc main_v42)) (W7 m ρ c (Proc.devRef .tc main_v43)) (W7 m ρ c (Proc.devRef .tc main_v15)) :=
  (W8_arr m ρ c 3).trans (Region2.final (V7 m ρ) c)

/-! ### Boundary 9: the return -/

set_option maxHeartbeats 4000000 in
theorem w9_v59 : W9 m ρ c (Proc.devRef .tc main_v59)
    = aggregate (W8 m ρ c (Proc.devRef .tc main_v44)) (W8 m ρ c (Proc.devRef .tc main_v5)) (W8 m ρ c (Proc.devRef .tc main_v6))
        (W8 m ρ c (Proc.devRef .tc main_v15)) (W8 m ρ c (Proc.devRef .tc main_arg8)) := by
  unfold aggregate wrapEdges
  dsimp only [W9]; simp only [hostOps3]; after_results_simp <;> rfl

/-! ### The buffers that ride along unchanged -/

/-- From the first region's entry to the third region's exit nothing writes the index arrays, the column D2 or the
    later arguments. -/
theorem keep_to_4 (b : Ref sig .tc) (h0 : ∀ w, Pipeline.arrRef spec0 w ≠ b) :
    W4 m ρ c (Proc.devRef .tc b) = W3 m ρ c (Proc.devRef .tc b) := W4_of_ne m ρ c b h0
theorem keep_to_6 (b : Ref sig .tc) (h0 : ∀ w, Pipeline.arrRef spec0 w ≠ b)
    (h1 : ∀ op ∈ (hostOps1 : List (HloOp τ sig (Elt Ideal))), Proc.devRef .tc b ∉ op.writes) (h2 : ∀ w, Pipeline.arrRef spec1 w ≠ b) :
    W6 m ρ c (Proc.devRef .tc b) = W3 m ρ c (Proc.devRef .tc b) :=
  (W6_of_ne m ρ c b h2).trans ((StableHlo.after_of_forall_not_mem _ _ h1).trans (W4_of_ne m ρ c b h0))
theorem keep_to_8 (b : Ref sig .tc) (h0 : ∀ w, Pipeline.arrRef spec0 w ≠ b)
    (h1 : ∀ op ∈ (hostOps1 : List (HloOp τ sig (Elt Ideal))), Proc.devRef .tc b ∉ op.writes) (h2 : ∀ w, Pipeline.arrRef spec1 w ≠ b)
    (h3 : ∀ op ∈ (hostOps2 : List (HloOp τ sig (Elt Ideal))), Proc.devRef .tc b ∉ op.writes) (h4 : ∀ w, Pipeline.arrRef spec2 w ≠ b) :
    W8 m ρ c (Proc.devRef .tc b) = W3 m ρ c (Proc.devRef .tc b) :=
  (W8_of_ne m ρ c b h4).trans ((StableHlo.after_of_forall_not_mem _ _ h3).trans (keep_to_6 m ρ c b h0 h1 h2))

/-- No operation of a stretch writes the buffer. -/
macro "no_write" ops:ident : tactic => `(tactic| (
  refine List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem w4_arg0 : W4 m ρ c (Proc.devRef .tc main_arg0) = m ((c : Thread nD τ).loc main_arg0) :=
  (keep_to_4 m ρ c main_arg0 (by decide)).trans (w3_arg0 m ρ c)
theorem w4_arg5 : W4 m ρ c (Proc.devRef .tc main_arg5) = m ((c : Thread nD τ).loc main_arg5) :=
  (keep_to_4 m ρ c main_arg5 (by decide)).trans (w3_arg5 m ρ c)
theorem w5_v15 : W5 m ρ c (Proc.devRef .tc main_v15) = invSqrtDegCol (m ((c : Thread nD τ).loc main_arg1)) :=
  (StableHlo.after_of_forall_not_mem _ _ (by no_write hostOps1)).trans ((keep_to_4 m ρ c main_v15 (by decide)).trans (w3_v15 m ρ c))
theorem w6_v5 : W6 m ρ c (Proc.devRef .tc main_v5) = srcIdx (m ((c : Thread nD τ).loc main_arg1)) :=
  (keep_to_6 m ρ c main_v5 (by decide) (by no_write hostOps1) (by decide)).trans (w3_v5 m ρ c)
theorem w6_v6 : W6 m ρ c (Proc.devRef .tc main_v6) = dstIdx (m ((c : Thread nD τ).loc main_arg1)) :=
  (keep_to_6 m ρ c main_v6 (by decide) (by no_write hostOps1) (by decide)).trans (w3_v6 m ρ c)
theorem w6_v15 : W6 m ρ c (Proc.devRef .tc main_v15) = invSqrtDegCol (m ((c : Thread nD τ).loc main_arg1)) :=
  ((W6_arr m ρ c 2).trans (((dat1 (V5 m ρ) c).arrAt_in 2 rfl _).trans (A_eq1 (V5 m ρ) c 2))).trans (w5_v15 m ρ c)
theorem w6_arg6 : W6 m ρ c (Proc.devRef .tc main_arg6) = m ((c : Thread nD τ).loc main_arg6) :=
  (keep_to_6 m ρ c main_arg6 (by decide) (by no_write hostOps1) (by decide)).trans (w3_arg6 m ρ c)
theorem w6_arg7 : W6 m ρ c (Proc.devRef .tc main_arg7) = m ((c : Thread nD τ).loc main_arg7) :=
  (keep_to_6 m ρ c main_arg7 (by decide) (by no_write hostOps1) (by decide)).trans (w3_arg7 m ρ c)
theorem w7_v15 : W7 m ρ c (Proc.devRef .tc main_v15) = invSqrtDegCol (m ((c : Thread nD τ).loc main_arg1)) :=
  (StableHlo.after_of_forall_not_mem _ _ (by no_write hostOps2)).trans (w6_v15 m ρ c)
theorem w8_v5 : W8 m ρ c (Proc.devRef .tc main_v5) = srcIdx (m ((c : Thread nD τ).loc main_arg1)) :=
  (keep_to_8 m ρ c main_v5 (by decide) (by no_write hostOps1) (by decide) (by no_write hostOps2) (by decide)).trans (w3_v5 m ρ c)
theorem w8_v6 : W8 m ρ c (Proc.devRef .tc main_v6) = dstIdx (m ((c : Thread nD τ).loc main_arg1)) :=
  (keep_to_8 m ρ c main_v6 (by decide) (by no_write hostOps1) (by decide) (by no_write hostOps2) (by decide)).trans (w3_v6 m ρ c)
theorem w8_v15 : W8 m ρ c (Proc.devRef .tc main_v15) = invSqrtDegCol (m ((c : Thread nD τ).loc main_arg1)) :=
  ((W8_arr m ρ c 2).trans (((dat2 (V7 m ρ) c).arrAt_in 2 rfl _).trans (A_eq2 (V7 m ρ) c 2))).trans (w7_v15 m ρ c)
theorem w8_arg8 : W8 m ρ c (Proc.devRef .tc main_arg8) = m ((c : Thread nD τ).loc main_arg8) :=
  (keep_to_8 m ρ c main_arg8 (by decide) (by no_write hostOps1) (by decide) (by no_write hostOps2) (by decide)).trans (w3_arg8 m ρ c)

/-! ## The result -/

/-- The result buffer's final contents are the program's term of the launch contents of the nine arguments. -/
theorem final_result : W9 m ρ c (Proc.devRef .tc main_v59)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [w9_v59, w8_v44, w8_v5, w8_v6, w8_v15, w8_arg8, w7_v42, w7_v43, w7_v15, w6_v27, w6_v5, w6_v6, w6_v15, w6_arg6, w6_arg7,
    w5_v25, w5_v26, w5_v15, w4_v18, w4_arg0, w4_arg5]
  rfl

end Cert.KernelIdeal.KValue

end
-- ==== Proof.RTerms.lean ====
/-
  The idealized reference program's result as a term of its nine arguments.

  The same index arrays, degrees and inverse square roots as the kernel program computes. The embedding rows are
  gathered at the node tokens first and projected afterwards. Each layer multiplies by its weights, gathers the rows
  at the sources, multiplies the row of edge e by the weight D(source e) · D(target e), adds the rows up at the
  targets and adds the bias; between the layers the table is clamped below at zero.
-/
import proofs.«102809_j60404420051602_2_alg».proof.Proof.RefRun
import Idealize.ShloMosaic.PureOps.Ideal

set_option maxRecDepth 16384

noncomputable section

namespace Cert.ReferenceIdeal.RTerms

open Cert.ReferenceIdeal Idealize.ShloMosaic Idealize.ShloMosaic.TcCoe Idealize.SL.Sem
open Facts₀ Facts

/-- The source indices: row 0 of the edge list, then one self-loop per node. -/
def srcIdx (e : IVec S2x600000 32) : IVec S650000 32 :=
  concatenate S650000 0 [⟨S600000, shapeCast _ (extractStridedSlice S1x600000 ![0, 0] e slices_S2x600000_S1x600000_0_0) shapeCasts_S1x600000_S600000⟩, ⟨S50000, iotaInDim S50000 32 0⟩] concatenates_S600000_S50000_S650000_d0

/-- The target indices: row 1 of the edge list, then one self-loop per node. -/
def dstIdx (e : IVec S2x600000 32) : IVec S650000 32 :=
  concatenate S650000 0 [⟨S600000, shapeCast _ (extractStridedSlice S1x600000 ![1, 0] e slices_S2x600000_S1x600000_1_0) shapeCasts_S1x600000_S600000⟩, ⟨S50000, iotaInDim S50000 32 0⟩] concatenates_S600000_S50000_S650000_d0

/-- The degrees: ones added up at the targets. -/
def degree (e : IVec S2x600000 32) : FVec Ideal S50000 .f32 :=
  Host.scatterAdd scatter_S50000_S650000x1_S650000_n_0_0_1 (broadcastInDim S50000 ![] bcast_S_S50000 (constant (F := Ideal) S_ .f32 0x00000000#32))
    (broadcastInDim S650000x1 ![0] bcast_S650000_S650000x1_0 (dstIdx e)) (broadcastInDim S650000 ![] bcast_S_S650000 (constant (F := Ideal) S_ .f32 0x3F800000#32))

/-- The inverse square roots of the degrees, 0 where the degree is not positive. -/
def invSqrtDeg (e : IVec S2x600000 32) : FVec Ideal S50000 .f32 :=
  select (cmpf (F := Ideal) .ogt (degree e) (broadcastInDim S50000 ![] bcast_S_S50000 (constant (F := Ideal) S_ .f32 0x00000000#32))) (Host.rsqrt (degree e))
    (broadcastInDim S50000 ![] bcast_S_S50000 (id (constant (F := Ideal) S_ .f32 0x00000000#32)))

/-- Indices along the edges with negative ones wrapped by the node count, as a column of start indices. -/
def wrapEdges (s : IVec S650000 32) : IVec S650000x1 32 :=
  broadcastInDim S650000x1 ![0] bcast_S650000_S650000x1_0
    (select (cmpi .slt s (broadcastInDim S650000 ![] bcast_S_S650000 (constantI S_ 32 0#32))) (addi s (broadcastInDim S650000 ![] bcast_S_S650000 (constantI S_ 32 50000#32))) s)

/-- The node tokens with negative ones wrapped by the vocabulary size, as a column of start indices. -/
def wrapTokens (t : IVec S50000 32) : IVec S50000x1 32 :=
  broadcastInDim S50000x1 ![0] bcast_S50000_S50000x1_0
    (select (cmpi .slt t (broadcastInDim S50000 ![] bcast_S_S50000 (constantI S_ 32 0#32))) (addi t (broadcastInDim S50000 ![] bcast_S_S50000 (constantI S_ 32 50000#32))) t)

/-- The weight of every edge: D at its source times D at its target. -/
def edgeWeight (e : IVec S2x600000 32) : FVec Ideal S650000 .f32 :=
  mulf (Host.gather gather_S50000_S650000x1_S650000_n_0_n_n_0_1_1 (invSqrtDeg e) (wrapEdges (srcIdx e)))
    (Host.gather gather_S50000_S650000x1_S650000_n_0_n_n_0_1_1 (invSqrtDeg e) (wrapEdges (dstIdx e)))

/-- One layer after its product: gather the rows at the sources, weight them, add them up at the targets, add the bias. -/
def aggregate (Y : FVec Ideal S50000x128 .f32) (e : IVec S2x600000 32) (b : FVec Ideal S128 .f32) : FVec Ideal S50000x128 .f32 :=
  addf (Host.scatterAdd scatter_S50000x128_S650000x1_S650000x128_1_0_0_1
      (broadcastInDim S50000x128 ![] bcast_S_S50000x128 (constant (F := Ideal) S_ .f32 0x00000000#32))
      (broadcastInDim S650000x1 ![0] bcast_S650000_S650000x1_0 (dstIdx e))
      (mulf (Host.gather gather_S50000x128_S650000x1_S650000x128_1_0_n_n_0_1_1128 Y (wrapEdges (srcIdx e)))
        (broadcastInDim S650000x128 ![0, 1] bcast_S650000x1_S650000x128_0_1 (broadcastInDim S650000x1 ![0] bcast_S650000_S650000x1_0 (edgeWeight e)))))
    (broadcastInDim S50000x128 ![0, 1] bcast_S1x128_S50000x128_0_1 (broadcastInDim S1x128 ![1] bcast_S128_S1x128_1 b))

/-- The embedding rows at the node tokens, projected. -/
def embed (a0 : IVec S50000 32) (a2 : FVec Ideal S50000x256 .f32) (a3 : FVec Ideal S128x256 .f32) (a4 : FVec Ideal S128 .f32) : FVec Ideal S50000x128 .f32 :=
  addf (Host.dotGeneral dot_S50000x256_S256x128_S50000x128_1_0_0_1_n_n none
      (Host.gather gather_S50000x256_S50000x1_S50000x256_1_0_n_n_0_1_1256 a2 (wrapTokens a0)) (transpose S256x128 [1, 0] a3 transposes_S128x256_S256x128_1_0))
    (broadcastInDim S50000x128 ![0, 1] bcast_S1x128_S50000x128_0_1 (broadcastInDim S1x128 ![1] bcast_S128_S1x128_1 a4))

/-- The whole result as a term of the nine arguments. -/
def result (a0 : IVec S50000 32) (a1 : IVec S2x600000 32) (a2 : FVec Ideal S50000x256 .f32) (a3 : FVec Ideal S128x256 .f32)
    (a4 : FVec Ideal S128 .f32) (a5 : FVec Ideal S128x128 .f32) (a6 : FVec Ideal S128 .f32) (a7 : FVec Ideal S128x128 .f32)
    (a8 : FVec Ideal S128 .f32) : FVec Ideal S50000x128 .f32 :=
  aggregate
    (Host.dotGeneral dot_S50000x128_S128x128_S50000x128_1_0_0_1_n_n none
      (maximumf
        (aggregate (Host.dotGeneral dot_S50000x128_S128x128_S50000x128_1_0_0_1_n_n none (embed a0 a2 a3 a4) (transpose S128x128 [1, 0] a5 transposes_S128x128_S128x128_1_0)) a1 a6)
        (broadcastInDim S50000x128 ![] bcast_S_S50000x128 (constant (F := Ideal) S_ .f32 0x00000000#32)))
      (transpose S128x128 [1, 0] a7 transposes_S128x128_S128x128_1_0))
    a1 a8

/-- The run's composed term is this one. -/
theorem res_eq (m : (ℓ : Loc nD τ sig) → Buf (Elt Ideal) ℓ) (c : Dev nD) :
    Cert.ReferenceIdeal.ValueP.res_main_v104 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.ValueP.res_main_v104
  rfl

end Cert.ReferenceIdeal.RTerms

end
-- ==== Proof.LibRowGatherScatter.lean ====
/-
  ROW GATHER AND ROW SCATTER READ AT AN INDEX: what the host operations stablehlo.gather and stablehlo.scatter do at one
  element when they move whole rows of a rank-2 array (or single elements of a rank-1 array) selected by a column of
  start indices [R, 1].

  rowOf is the row a start index selects under gather's rule: the index word read as a signed integer and clamped into
  [0, N - 1] (rowOf_eq_of_toInt: it is n when the word reads as n < N). gather_rows_apply: a gather of an [N, C] operand
  with offset_dims [1], collapsed_slice_dims [0], start_index_map [0], index_vector_dim 1, slice_sizes [1, C] at (r, c)
  is the operand at (rowOf r, c). gather_elems_apply: the same for an [N] operand with no offset axis and slice_sizes [1].
  scatter_rows_resultIdx?_eq_some_iff: under scatter's dimension numbers update_window_dims [1], inserted_window_dims [0],
  scatter_dims_to_operand_dims [0], index_vector_dim 1, update element (r, c) lands on operand element (n, c') exactly
  when the index word of row r, read signed and NOT clamped, is n, and the column is the same.
-/
import Mathlib
import Idealize.ShloMosaic.PureOps.Contract
import Idealize.ShloMosaic.PureOps.ShapeOps
import Idealize.ShloMosaic.PureOps.Dims
import Idealize.ShloMosaic.Lib.ValueIdx

namespace Idealize.ShloMosaic.RowGatherScatter

open Idealize.ShloMosaic Idealize.ShloMosaic.ValueIdx

/-- The row a start index selects: the index word of row r read signed, clamped into [0, N - 1]. -/
def rowOf {N R w : ℕ} (hN : 0 < N) (idx : IVec ⟨2, ![R, 1]⟩ w) (r : Fin R) : Fin N :=
  ⟨min (idx (ix2 r 0)).toInt.toNat (N - 1), by omega⟩

/-- An index word that reads as n, a row of the operand, selects row n: the clamp does nothing. -/
theorem rowOf_eq_of_toInt {N R w : ℕ} (hN : 0 < N) (idx : IVec ⟨2, ![R, 1]⟩ w) (r : Fin R) (n : Fin N)
    (h : (idx (ix2 r 0)).toInt = (n.val : ℤ)) : rowOf hN idx r = n := by
  refine Fin.ext ?_
  show min (idx (ix2 r 0)).toInt.toNat (N - 1) = n.val
  rw [h, Int.toNat_natCast]
  have := n.isLt
  omega

/-! ## The row gather -/

/-- The row gather's dimension numbers, literal, over any proof of their conditions. -/
abbrev rowsDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at the literal dimension numbers. -/
theorem gather_rows_lit {α : Type} {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c) = x (ix2 (rowOf hN idx r) c) := by
  unfold Host.gather
  congr 1
  funext a
  refine Fin.ext ?_
  match a with
  | ⟨0, _⟩ =>
    -- the row axis: collapsed, so no offset; its start is the clamped index
    show (rowsDims N C R wf).start (ix2 r c) idx 0 + (rowsDims N C R wf).batchCoord (ix2 r c) 0
      + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    -- the column axis: not in the start index map, so start 0; its offset is the result's column
    show (rowsDims N C R wf).start (ix2 r c) idx 1 + (rowsDims N C R wf).batchCoord (ix2 r c) 1
      + (rowsDims N C R wf).offCoord (ix2 r c) 1 = c.val
    rw [GatherDims.batchCoord_eq_zero _ _ _ List.not_mem_nil]
    unfold GatherDims.start
    rw [dif_neg (show (1 : Fin 2) ∉ (rowsDims N C R wf).startIndexMap by show (1 : Fin 2) ∉ [(0 : Fin 2)]; decide)]
    unfold GatherDims.offCoord
    rw [dif_pos (show (1 : Fin 2) ∈ (rowsDims N C R wf).sKept from
      (GatherDims.mem_sKept _ _).mpr ⟨by show (1 : Fin 2) ∉ [(0 : Fin 2)]; decide, List.not_mem_nil⟩)]
    simp only [Nat.zero_add]
    rfl

/-- A ROW GATHER READ AT (r, c): result row r is the operand's row at the clamped start index, the column kept. -/
theorem gather_rows_apply {α : Type} {N C R w : ℕ} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c) = x (ix2 (rowOf hN idx r) c) := by
  obtain ⟨od, cd, ob, sb, sm, iv, ss, wf⟩ := d
  simp only at h1 h2 h3 h4 h5 h6 h7
  subst h1 h2 h3 h4 h5 h6 h7
  exact gather_rows_lit hN wf x idx r c

/-! ## The element gather -/

/-- The element gather's dimension numbers, literal, over any proof of their conditions. -/
abbrev elemsDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The element gather at the literal dimension numbers. -/
theorem gather_elems_lit {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (elemsDims N R wf) x idx (ix1 r) = x (ix1 (rowOf hN idx r)) := by
  unfold Host.gather
  congr 1
  funext a
  obtain rfl : a = 0 := Subsingleton.elim _ _
  refine Fin.ext ?_
  show (elemsDims N R wf).start (ix1 r) idx 0 + (elemsDims N R wf).batchCoord (ix1 r) 0
    + (elemsDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N R wf).startIndexMap from List.mem_singleton.mpr rfl)]
  have hsi : (elemsDims N R wf).siIdx (ix1 r) ⟨List.idxOf (0 : Fin 1) (elemsDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- AN ELEMENT GATHER READ AT r: result element r is the operand's element at the clamped start index. -/
theorem gather_elems_apply {α : Type} {N R w : ℕ} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (r : Fin R) :
    Host.gather d x idx (ix1 r) = x (ix1 (rowOf hN idx r)) := by
  obtain ⟨od, cd, ob, sb, sm, iv, ss, wf⟩ := d
  simp only at h1 h2 h3 h4 h5 h6 h7
  subst h1 h2 h3 h4 h5 h6 h7
  exact gather_elems_lit hN wf x idx r

/-! ## The row scatter -/

/-- The row scatter's dimension numbers, literal, over any proof of their conditions. -/
abbrev scatDims (N C R : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatLit
variable {N C R w : ℕ} (wf : ScatterDims.WF ⟨2, ![N, C]⟩ ⟨2, ![R, 1]⟩ ⟨2, ![R, C]⟩ [1] [0] [0] 1)
  (idx : IVec ⟨2, ![R, 1]⟩ w) (r : Fin R) (c : Fin C)

/-- On the row axis the window starts at the index word of row r, read signed. -/
theorem scat_start0 : (scatDims N C R wf).start (ix2 r c) idx 0 = (idx (ix2 r 0)).toInt := by
  unfold ScatterDims.start
  rw [dif_pos (show (0 : Fin 2) ∈ (scatDims N C R wf).scatterDimsToOperandDims from List.mem_singleton.mpr rfl)]
  have hsi : (scatDims N C R wf).siIdx (ix2 r c) ⟨List.idxOf (0 : Fin 2) (scatDims N C R wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis, which the map does not name, the window starts at 0. -/
theorem scat_start1 : (scatDims N C R wf).start (ix2 r c) idx 1 = 0 := by
  unfold ScatterDims.start
  rw [dif_neg (show (1 : Fin 2) ∉ (scatDims N C R wf).scatterDimsToOperandDims by show (1 : Fin 2) ∉ [(0 : Fin 2)]; decide)]

/-- The row axis is inserted: window coordinate 0. -/
theorem scat_window0 : (scatDims N C R wf).window (ix2 r c) 0 = 0 := by
  unfold ScatterDims.window
  rw [dif_neg (show (0 : Fin 2) ∉ (scatDims N C R wf).sKept by
    show (0 : Fin 2) ∉ (List.finRange 2).filter (fun a => decide (a ∉ [(0 : Fin 2)])); decide)]

/-- The column axis carries the update's column. -/
theorem scat_window1 : (scatDims N C R wf).window (ix2 r c) 1 = c.val := by
  unfold ScatterDims.window
  rw [dif_pos (show (1 : Fin 2) ∈ (scatDims N C R wf).sKept by
    show (1 : Fin 2) ∈ (List.finRange 2).filter (fun a => decide (a ∉ [(0 : Fin 2)])); decide)]
  rfl

end ScatLit

/-- The row scatter's target at the literal dimension numbers. -/
theorem scatter_rows_lit {N C R w : ℕ} (wf : ScatterDims.WF ⟨2, ![N, C]⟩ ⟨2, ![R, 1]⟩ ⟨2, ![R, C]⟩ [1] [0] [0] 1)
    (idx : IVec ⟨2, ![R, 1]⟩ w) (r : Fin R) (c : Fin C) (n : Fin N) (c' : Fin C) :
    (scatDims N C R wf).resultIdx? (ix2 r c) idx = some (ix2 n c') ↔ (idx (ix2 r 0)).toInt = (n.val : ℤ) ∧ c = c' := by
  have hs0 := scat_start0 wf idx r c
  have hs1 := scat_start1 wf idx r c
  have hw0 := scat_window0 wf r c
  have hw1 := scat_window1 wf r c
  unfold ScatterDims.resultIdx?
  split
  · rename_i h
    rw [Option.some.injEq]
    constructor
    · intro he
      have e0 := congrArg Fin.val (congrFun he 0)
      have e1 := congrArg Fin.val (congrFun he 1)
      have b0 := (h 0).1
      have b1 := (h 1).1
      simp only [hs0, hs1, hw0, hw1] at e0 e1 b0 b1
      change ((idx (ix2 r 0)).toInt + ((0 : ℕ) : ℤ)).toNat = n.val at e0
      change ((0 : ℤ) + (c.val : ℤ)).toNat = c'.val at e1
      refine ⟨by omega, Fin.ext (by omega)⟩
    · rintro ⟨hn, rfl⟩
      funext a
      refine Fin.ext ?_
      match a with
      | ⟨0, _⟩ =>
        show ((scatDims N C R wf).start (ix2 r c) idx 0 + ((scatDims N C R wf).window (ix2 r c) 0 : ℤ)).toNat = n.val
        rw [hs0, hw0, hn]; omega
      | ⟨1, _⟩ =>
        show ((scatDims N C R wf).start (ix2 r c) idx 1 + ((scatDims N C R wf).window (ix2 r c) 1 : ℤ)).toNat = c.val
        rw [hs1, hw1]; omega
  · rename_i h
    constructor
    · intro he; cases he
    · rintro ⟨hn, rfl⟩
      exfalso
      apply h
      intro a
      match a with
      | ⟨0, _⟩ =>
        show 0 ≤ (scatDims N C R wf).start (ix2 r c) idx 0 + ((scatDims N C R wf).window (ix2 r c) 0 : ℤ) ∧
          (scatDims N C R wf).start (ix2 r c) idx 0 + ((scatDims N C R wf).window (ix2 r c) 0 : ℤ) < (N : ℤ)
        rw [hs0, hw0, hn]
        have := n.isLt
        omega
      | ⟨1, _⟩ =>
        show 0 ≤ (scatDims N C R wf).start (ix2 r c) idx 1 + ((scatDims N C R wf).window (ix2 r c) 1 : ℤ) ∧
          (scatDims N C R wf).start (ix2 r c) idx 1 + ((scatDims N C R wf).window (ix2 r c) 1 : ℤ) < (C : ℤ)
        rw [hs1, hw1]
        have := c.isLt
        omega

/-- A ROW SCATTER'S TARGET: update element (r, c) lands on operand element (n, c') exactly when the index word of row r,
    read signed and not clamped, is n, and the column is the same. -/
theorem scatter_rows_resultIdx?_eq_some_iff {N C R w : ℕ} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (r : Fin R) (c : Fin C) (n : Fin N) (c' : Fin C) :
    d.resultIdx? (ix2 r c) idx = some (ix2 n c') ↔ (idx (ix2 r 0)).toInt = (n.val : ℤ) ∧ c = c' := by
  obtain ⟨uw, iw, sd, iv, wf⟩ := d
  simp only at h1 h2 h3 h4
  subst h1 h2 h3 h4
  exact scatter_rows_lit wf idx r c n c'

end Idealize.ShloMosaic.RowGatherScatter
-- ==== Proof.Layer.lean ====
/-
  One graph-convolution layer, with the edge normalisation applied in two ways.

  Every edge e carries a source row and a target row; node n collects the rows of a table Y over the edges whose
  target is n. The normalisation weight of edge e is D(source e) · D(target e), where D is the inverse square root of
  the degree. Either every collected row is multiplied by its edge's weight before it is added, or the table is
  scaled row by row by D beforehand and the sum at node n is multiplied by D(n) afterwards. The two agree because
  every edge collected at n has target n, multiplication of extended reals is associative, and a factor that is a
  nonnegative real number distributes over a sum of extended reals. D is such a number whatever the degree is: where
  the degree is positive it is +∞ ↦ 0 or r ↦ 1/√r, and elsewhere it is 0.
-/
import Mathlib
import Idealize.ShloMosaic.PureOps.Ideal
import Idealize.ShloMosaic.PureOps.Contract
import Idealize.ShloMosaic.Lib.ValueIdx
import proofs.«102809_j60404420051602_2_alg».proof.Proof.LibRowGatherScatter

open scoped BigOperators

noncomputable section

namespace Cert.GraphLayer

open Idealize.ShloMosaic Idealize.ShloMosaic.ValueIdx Idealize.ShloMosaic.RowGatherScatter

/-- A nonnegative real factor distributes over a finite sum of extended reals. -/
theorem sum_mul_of_nonneg_ne_top {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The inverse square root of a degree, taken as 0 where the degree is not positive, is a nonnegative real number
    for every extended-real degree. -/
theorem invSqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  by_cases h : (0 : EReal) < x
  · have hb : BitVec.ofBool (decide ((0 : EReal) < x)) = 1 := by simp [h]
    rw [if_pos hb]
    induction x using EReal.rec with
    | bot => exact absurd h (by simp)
    | top => rw [Ideal.rsqrt_top]; exact ⟨le_refl _, by simp⟩
    | coe r =>
      have hr : 0 < r := by exact_mod_cast h
      rw [Ideal.rsqrt_coe, if_neg (not_lt.2 hr.le), if_neg hr.ne']
      exact ⟨by exact_mod_cast inv_nonneg.2 (Real.sqrt_nonneg r), EReal.coe_ne_top _⟩
  · have hb : ¬ BitVec.ofBool (decide ((0 : EReal) < x)) = 1 := by simp [h]
    rw [if_neg hb]
    exact ⟨le_refl _, by simp⟩

section Layer

variable {N C R w : ℕ} (hN : 0 < N)
  (sd : ScatterDims ⟨2, ![N, C]⟩ ⟨2, ![R, 1]⟩ ⟨2, ![R, C]⟩)
  (hs1 : sd.updateWindowDims = [1]) (hs2 : sd.insertedWindowDims = [0]) (hs3 : sd.scatterDimsToOperandDims = [0]) (hs4 : sd.indexVectorDim = 1)
  (gd : GatherDims ⟨2, ![N, C]⟩ ⟨2, ![R, 1]⟩ ⟨2, ![R, C]⟩)
  (hg1 : gd.offsetDims = [1]) (hg2 : gd.collapsedSliceDims = [0]) (hg3 : gd.operandBatchingDims = []) (hg4 : gd.startIndicesBatchingDims = [])
  (hg5 : gd.startIndexMap = [0]) (hg6 : gd.indexVectorDim = 1) (hg7 : gd.sliceSizes = ![1, C])
  (ge : GatherDims ⟨1, ![N]⟩ ⟨2, ![R, 1]⟩ ⟨1, ![R]⟩)
  (he1 : ge.offsetDims = []) (he2 : ge.collapsedSliceDims = [0]) (he3 : ge.operandBatchingDims = []) (he4 : ge.startIndicesBatchingDims = [])
  (he5 : ge.startIndexMap = [0]) (he6 : ge.indexVectorDim = 1) (he7 : ge.sliceSizes = ![1])

include hN hs1 hs2 hs3 hs4 hg1 hg2 hg3 hg4 hg5 hg6 hg7 he1 he2 he3 he4 he5 he6 he7 in
/-- At node n, column j: scaling the table by D beforehand and the collected sum by D(n) afterwards equals collecting
    the rows each multiplied by D(source) · D(target). The target index used for the weight may be any index array that
    agrees with the collecting one wherever that one names a node (an index that names no node collects nothing). -/
theorem scaled_sum_eq_sum_weighted (Y : (⟨2, ![N, C]⟩ : Shape).Idx → EReal) (D : (⟨1, ![N]⟩ : Shape).Idx → EReal)
    (hD : ∀ n, 0 ≤ D n ∧ D n ≠ ⊤) (src tgt tgt' : IVec ⟨2, ![R, 1]⟩ w)
    (htgt : ∀ (e : Fin R) (n : Fin N), (tgt (ix2 e 0)).toInt = (n.val : ℤ) → (tgt' (ix2 e 0)).toInt = (n.val : ℤ))
    (n : Fin N) (j : Fin C) :
    Ideal.hostScatterAdd sd (fun _ => (0 : EReal)) tgt (Host.gather gd (fun i => Y i * D (ix1 (i 0))) src) (ix2 n j) * D (ix1 n)
      = Ideal.hostScatterAdd sd (fun _ => (0 : EReal)) tgt
          (fun u => Host.gather gd Y src u * (Host.gather ge D src (ix1 (u 0)) * Host.gather ge D tgt' (ix1 (u 0)))) (ix2 n j) := by
  unfold Ideal.hostScatterAdd
  rw [zero_add, zero_add, sum_mul_of_nonneg_ne_top _ _ _ (hD _).1 (hD _).2]
  refine Finset.sum_congr rfl fun u hu => ?_
  obtain ⟨e, c, rfl⟩ : ∃ (e : Fin R) (c : Fin C), u = ix2 e c := ⟨u 0, u 1, eq_ix2 u⟩
  obtain ⟨hd, rfl⟩ := (scatter_rows_resultIdx?_eq_some_iff sd hs1 hs2 hs3 hs4 tgt e c n j).1 (Finset.mem_filter.1 hu).2
  show Host.gather gd (fun i => Y i * D (ix1 (i 0))) src (ix2 e c) * D (ix1 n)
    = Host.gather gd Y src (ix2 e c) * (Host.gather ge D src (ix1 e) * Host.gather ge D tgt' (ix1 e))
  rw [gather_rows_apply hN gd hg1 hg2 hg3 hg4 hg5 hg6 hg7, gather_rows_apply hN gd hg1 hg2 hg3 hg4 hg5 hg6 hg7,
    gather_elems_apply hN ge he1 he2 he3 he4 he5 he6 he7, gather_elems_apply hN ge he1 he2 he3 he4 he5 he6 he7,
    rowOf_eq_of_toInt hN tgt' e n (htgt e n hd)]
  exact mul_assoc _ _ _

end Layer

/-- A signed 32-bit index that names a node is not negative, so wrapping negative indices by the node count leaves it. -/
theorem wrap_of_toInt_nonneg (x z k : BitVec 32) (hz : z = 0#32) (n : ℕ) (h : x.toInt = (n : ℤ)) :
    (Scalar.select (IntOp.cmpi .slt x z) (IntOp.addi x k) x).toInt = (n : ℤ) := by
  subst hz
  have hlt : ¬ x.slt 0#32 = true := by
    rw [BitVec.slt_iff_toInt_lt]; simp [h]
  have hb : ¬ IntOp.cmpi .slt x 0#32 = 1 := by
    unfold IntOp.cmpi; simp [hlt]
  unfold Scalar.select
  rw [if_neg hb, h]

end Cert.GraphLayer

end
-- ==== Proof.Bridge.lean ====
/-
  The kernel program's result term equals the reference program's, for all argument arrays.

  Three facts, each over arbitrary arrays. The embedding: gathering rows of the projected table at the node tokens is
  projecting the rows gathered at the same tokens, since both read the same clamped row of the raw table. One layer:
  with D the inverse square root of the degree (a nonnegative real number at every node), scaling the product's rows
  by D, adding the gathered rows up at the targets and scaling node n's sum by D(n) equals adding up the gathered rows
  each weighted by D(source) · D(target); the raw target index and the wrapped one agree wherever the raw one names a
  node, and an index that names no node collects nothing. The clamp between the layers is the maximum with the
  broadcast zero constant on both sides. The result follows by rewriting with these, innermost first.
-/
import proofs.«102809_j60404420051602_2_alg».proof.Proof.KTerms
import proofs.«102809_j60404420051602_2_alg».proof.Proof.RTerms
import proofs.«102809_j60404420051602_2_alg».proof.Proof.Layer
import proofs.«102809_j60404420051602_2_alg».proof.Proof.LibKeepdims
import proofs.«102809_j60404420051602_2_alg».proof.Proof.LibRowGatherScatter
import proofs.«102809_j60404420051602_2_alg».proof.Proof.Spec
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Bridge

open Idealize.ShloMosaic Idealize.ShloMosaic.ValueIdx Idealize.ShloMosaic.RowGatherScatter

/-! ## Broadcasts read at an index -/

section Bcast
variable {α : Type}

/-- A length-a vector broadcast along axis 0 to an a × 1 column reads, at (i, u), the vector at i. -/
theorem bcast_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ (ix1 i) fun ax => by
    match ax with
    | ⟨0, _⟩ =>
      show i.val = if a = 1 then 0 else i.val
      split
      · have := i.isLt; omega
      · rfl

/-- An a × 1 column broadcast along both axes to a × b reads, at (p, c), the column at (p, 0). -/
theorem bcast_colwide_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) fun ax => by
    match ax with
    | ⟨0, _⟩ =>
      show p.val = if a = 1 then 0 else p.val
      split
      · have := p.isLt; omega
      · rfl
    | ⟨1, _⟩ => rfl

/-- A length-b vector broadcast along axis 1 to a 1 × b row reads, at (u, c), the vector at c. -/
theorem bcast_row_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply _ h x _ (ix1 c) fun ax => by
    match ax with
    | ⟨0, _⟩ =>
      show c.val = if b = 1 then 0 else c.val
      split
      · have := c.isLt; omega
      · rfl

/-- A 1 × b row broadcast along both axes to a × b reads, at (p, c), the row at (0, c). -/
theorem bcast_rowwide_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) fun ax => by
    match ax with
    | ⟨0, _⟩ => rfl
    | ⟨1, _⟩ =>
      show c.val = if b = 1 then 0 else c.val
      split
      · have := c.isLt; omega
      · rfl

end Bcast

/-- The broadcast zero constant is the zero array. -/
theorem bcast_zero_eq {t : Shape} (h : (⟨0, ![]⟩ : Shape).BroadcastsInDim t ![]) :
    broadcastInDim t ![] h (constant (F := Ideal) ⟨0, ![]⟩ .f32 0x00000000#32) = fun _ => (0 : EReal) := by
  funext j
  show Ideal.ofBits .f32 0x00000000#32 = 0
  exact Ideal.ofBits_zero_f32

/-! ## The reference's two products read at an element -/

section Dots
open Cert.ReferenceIdeal

theorem r128_lhs0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem r128_lhs1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem r128_rhs0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem r128_rhs1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The reference's 50000×128 by 128×128 product at (r, q): the sum over the 128 contracted entries. -/
theorem dot128_apply (x : FVec Ideal S50000x128 .f32) (w : FVec Ideal S128x128 .f32) (r : Fin 50000) (q : Fin 128) :
    Host.dotGeneral (F := Ideal) dot_S50000x128_S128x128_S50000x128_1_0_0_1_n_n none x w (ix2 r q)
      = ∑ k : Fin 128, x (ix2 r k) * w (ix2 k q) := by
  rw [show Host.dotGeneral (F := Ideal) dot_S50000x128_S128x128_S50000x128_1_0_0_1_n_n none x w (ix2 r q)
        = FloatOps.dotGeneral dot_S50000x128_S128x128_S50000x128_1_0_0_1_n_n none .single x w (ix2 r q) from rfl,
    Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q)
      ((contrEquiv1 dot_S50000x128_S128x128_S50000x128_1_0_0_1_n_n 128 rfl rfl).symm k) = ix2 r k :=
    funext fun a => Fin.ext (by
      match a with
      | ⟨0, _⟩ => exact r128_lhs0 _ _
      | ⟨1, _⟩ => exact (r128_lhs1 _ _).trans hk)
  have er : dot_S50000x128_S128x128_S50000x128_1_0_0_1_n_n.rhsIdx (ix2 r q)
      ((contrEquiv1 dot_S50000x128_S128x128_S50000x128_1_0_0_1_n_n 128 rfl rfl).symm k) = ix2 k q :=
    funext fun a => Fin.ext (by
      match a with
      | ⟨0, _⟩ => exact (r128_rhs0 _ _).trans hk
      | ⟨1, _⟩ => exact r128_rhs1 _ _)
  rw [el, er]

theorem r256_lhs0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl
theorem r256_lhs1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem r256_rhs0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem r256_rhs1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- The reference's 50000×256 by 256×128 product at (r, q): the sum over the 256 contracted entries. -/
theorem dot256_apply (x : FVec Ideal S50000x256 .f32) (w : FVec Ideal S256x128 .f32) (r : Fin 50000) (q : Fin 128) :
    Host.dotGeneral (F := Ideal) dot_S50000x256_S256x128_S50000x128_1_0_0_1_n_n none x w (ix2 r q)
      = ∑ k : Fin 256, x (ix2 r k) * w (ix2 k q) := by
  rw [show Host.dotGeneral (F := Ideal) dot_S50000x256_S256x128_S50000x128_1_0_0_1_n_n none x w (ix2 r q)
        = FloatOps.dotGeneral dot_S50000x256_S256x128_S50000x128_1_0_0_1_n_n none .single x w (ix2 r q) from rfl,
    Ideal.dotGeneral_apply,
    ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 r q)
      ((contrEquiv1 dot_S50000x256_S256x128_S50000x128_1_0_0_1_n_n 256 rfl rfl).symm k) = ix2 r k :=
    funext fun a => Fin.ext (by
      match a with
      | ⟨0, _⟩ => exact r256_lhs0 _ _
      | ⟨1, _⟩ => exact (r256_lhs1 _ _).trans hk)
  have er : dot_S50000x256_S256x128_S50000x128_1_0_0_1_n_n.rhsIdx (ix2 r q)
      ((contrEquiv1 dot_S50000x256_S256x128_S50000x128_1_0_0_1_n_n 256 rfl rfl).symm k) = ix2 k q :=
    funext fun a => Fin.ext (by
      match a with
      | ⟨0, _⟩ => exact (r256_rhs0 _ _).trans hk
      | ⟨1, _⟩ => exact r256_rhs1 _ _)
  rw [el, er]

end Dots

/-! ## The clamp between the layers -/

/-- The scaled product of the table clamped below at zero is the scaled product of its maximum with the broadcast
    zero constant. -/
theorem relu_eq (X : FVec Ideal Cert.ReferenceIdeal.S50000x128 .f32) (Wt : FVec Ideal Cert.ReferenceIdeal.S128x128 .f32)
    (D2 : FVec Ideal Cert.ReferenceIdeal.S50000x1 .f32) :
    Cert.Spec.reluScaledProd X Wt D2
      = Cert.Spec.scaledProd (maximumf X (broadcastInDim Cert.ReferenceIdeal.S50000x128 ![] Cert.ReferenceIdeal.Facts₀.bcast_S_S50000x128
          (constant (F := Ideal) Cert.ReferenceIdeal.S_ .f32 0x00000000#32))) Wt D2 := rfl

/-! ## The embedding: project then gather, or gather then project -/

/-- Gathering rows of the projected table at the node tokens is projecting the rows gathered at the same tokens:
    both read, at (r, q), row rowOf r of the raw table against column q of the weights, plus bias entry q. -/
theorem embed_eq (a0 : IVec Cert.KernelIdeal.S50000 32) (a2 : FVec Ideal Cert.KernelIdeal.S50000x256 .f32)
    (a3 : FVec Ideal Cert.KernelIdeal.S128x256 .f32) (a4 : FVec Ideal Cert.KernelIdeal.S128 .f32) :
    Host.gather Cert.KernelIdeal.gather_S50000x128_S50000x1_S50000x128_1_0_n_n_0_1_1128
        (Cert.Spec.projection a2
          (transpose Cert.KernelIdeal.S256x128 [1, 0] a3 Cert.KernelIdeal.Facts₀.transposes_S128x256_S256x128_1_0)
          (shapeCast _ a4 Cert.KernelIdeal.Facts₀.shapeCasts_S128_S1x128))
        (Cert.KernelIdeal.KTerms.wrapTokens a0)
      = Cert.ReferenceIdeal.RTerms.embed a0 a2 a3 a4 := by
  funext i
  obtain ⟨r, q, rfl⟩ : ∃ (r : Fin 50000) (q : Fin 128), i = ix2 r q := ⟨i 0, i 1, eq_ix2 i⟩
  rw [gather_rows_apply (N := 50000) (by decide) Cert.KernelIdeal.gather_S50000x128_S50000x1_S50000x128_1_0_n_n_0_1_1128
      rfl rfl rfl rfl rfl rfl rfl,
    Cert.Spec.projection_apply, shapeCast_a_1a_apply]
  unfold Cert.ReferenceIdeal.RTerms.embed
  rw [addf_apply, dot256_apply, bcast_rowwide_apply, bcast_row_apply]
  congr 1
  refine Finset.sum_congr rfl fun k _ => ?_
  rw [gather_rows_apply (N := 50000) (by decide) Cert.ReferenceIdeal.gather_S50000x256_S50000x1_S50000x256_1_0_n_n_0_1_1256
      rfl rfl rfl rfl rfl rfl rfl]
  rfl

/-! ## One layer: scale before and after, or weight every edge -/

/-- The plain product of a node table with layer weights, element by element. -/
def prod128 (X : FVec Ideal ⟨2, ![50000, 128]⟩ .f32) (Wt : FVec Ideal ⟨2, ![128, 128]⟩ .f32) :
    (⟨2, ![50000, 128]⟩ : Shape).Idx → EReal :=
  fun i => ∑ k : Fin 128, X (ix2 (i 0) k) * Wt (ix2 k (i 1))

/-- The reference's layer product is that plain product. -/
theorem dot128_eq (X : FVec Ideal Cert.ReferenceIdeal.S50000x128 .f32) (Wt : FVec Ideal Cert.ReferenceIdeal.S128x128 .f32) :
    Host.dotGeneral (F := Ideal) Cert.ReferenceIdeal.dot_S50000x128_S128x128_S50000x128_1_0_0_1_n_n none X Wt = prod128 X Wt := by
  funext i
  obtain ⟨r, q, rfl⟩ : ∃ (r : Fin 50000) (q : Fin 128), i = ix2 r q := ⟨i 0, i 1, eq_ix2 i⟩
  exact dot128_apply X Wt r q

/-- The kernel's scaled product, its scale a vector viewed as a column, is the plain product with row r times entry r. -/
theorem scaledProd_eq (X : FVec Ideal Cert.KernelIdeal.S50000x128 .f32) (Wt : FVec Ideal Cert.KernelIdeal.S128x128 .f32) (D : FVec Ideal Cert.KernelIdeal.S50000 .f32) :
    Cert.Spec.scaledProd X Wt (shapeCast Cert.KernelIdeal.S50000x1 D Cert.KernelIdeal.Facts₀.shapeCasts_S50000_S50000x1)
      = fun i => prod128 X Wt i * D (ix1 (i 0)) := by
  funext i
  obtain ⟨r, q, rfl⟩ : ∃ (r : Fin 50000) (q : Fin 128), i = ix2 r q := ⟨i 0, i 1, eq_ix2 i⟩
  exact congrArg (fun z => (∑ k : Fin 128, X (ix2 r k) * Wt (ix2 k q)) * z)
    (Cert.LibKeepdims.shapeCast_a_a1_apply D Cert.KernelIdeal.Facts₀.shapeCasts_S50000_S50000x1 r 0)

/-- A guarded inverse square root read at an index, over any arrays: where the two zero arrays read 0. -/
theorem invSqrt_at {s : Shape} (d z z' : FVec Ideal s .f32) (i : s.Idx) (hz : z i = 0) (hz' : z' i = 0) :
    select (cmpf (F := Ideal) .ogt d z) (Host.rsqrt d) z' i
      = Scalar.select (Ideal.cmp .ogt (d i) 0) (Ideal.rsqrt (d i)) (0 : EReal) := by
  show Scalar.select (Ideal.cmp .ogt (d i) (z i)) (Ideal.rsqrt (d i)) (z' i) = _
  rw [hz, hz']

/-- The inverse square root of the degree is a nonnegative real number at every node. -/
theorem invSqrtDeg_nonneg_ne_top (e : IVec Cert.KernelIdeal.S2x600000 32) (n : Cert.KernelIdeal.S50000.Idx) :
    0 ≤ Cert.KernelIdeal.KTerms.invSqrtDeg e n ∧ Cert.KernelIdeal.KTerms.invSqrtDeg e n ≠ ⊤ := by
  have e0 := invSqrt_at (Cert.KernelIdeal.KTerms.degree e)
    (broadcastInDim Cert.KernelIdeal.S50000 ![] Cert.KernelIdeal.Facts₀.bcast_S_S50000 (constant (F := Ideal) Cert.KernelIdeal.S_ .f32 0x00000000#32))
    (broadcastInDim Cert.KernelIdeal.S50000 ![] Cert.KernelIdeal.Facts₀.bcast_S_S50000 (id (constant (F := Ideal) Cert.KernelIdeal.S_ .f32 0x00000000#32)))
    n (congrFun (bcast_zero_eq Cert.KernelIdeal.Facts₀.bcast_S_S50000) n) (congrFun (bcast_zero_eq Cert.KernelIdeal.Facts₀.bcast_S_S50000) n)
  have h := Cert.GraphLayer.invSqrt_nonneg_ne_top (Cert.KernelIdeal.KTerms.degree e n)
  rw [← e0] at h
  exact h

/-- Where the raw target index of edge p names a node, the wrapped one names the same node. -/
theorem wrapEdges_toInt (t : IVec Cert.KernelIdeal.S650000 32) (p : Fin 650000) (n : Fin 50000)
    (h : (broadcastInDim Cert.KernelIdeal.S650000x1 ![0] Cert.KernelIdeal.Facts₀.bcast_S650000_S650000x1_0 t (ix2 p 0)).toInt = (n.val : ℤ)) :
    (Cert.KernelIdeal.KTerms.wrapEdges t (ix2 p 0)).toInt = (n.val : ℤ) := by
  rw [bcast_col_apply] at h
  unfold Cert.KernelIdeal.KTerms.wrapEdges
  rw [bcast_col_apply]
  exact Cert.GraphLayer.wrap_of_toInt_nonneg (t (ix1 p)) _ _ rfl n.val h

/-- At the exact instance the accumulating scatter is the operand plus the sum of the updates landing there. -/
theorem scatterAdd_ideal {s si u : Shape} {w : ℕ} (d : ScatterDims s si u) (x : FVec Ideal s .f32) (idx : IVec si w)
    (upd : FVec Ideal u .f32) : Host.scatterAdd (F := Ideal) d x idx upd = Ideal.hostScatterAdd d x idx upd := rfl

/-- The two programs' row-scatter records are the same record. -/
theorem scatterRec_eq : Cert.KernelIdeal.scatter_S50000x128_S650000x1_S650000x128_1_0_0_1
    = Cert.ReferenceIdeal.scatter_S50000x128_S650000x1_S650000x128_1_0_0_1 := rfl
/-- The two programs' row-gather records along the edges are the same record. -/
theorem gatherRec_eq : Cert.KernelIdeal.gather_S50000x128_S650000x1_S650000x128_1_0_n_n_0_1_1128
    = Cert.ReferenceIdeal.gather_S50000x128_S650000x1_S650000x128_1_0_n_n_0_1_1128 := rfl
/-- The two programs wrap edge indices by the same term. -/
theorem wrapEdges_eq (s : IVec Cert.KernelIdeal.S650000 32) : Cert.KernelIdeal.KTerms.wrapEdges s = Cert.ReferenceIdeal.RTerms.wrapEdges s := rfl

/-- THE LAYER over any scale vector D of nonnegative reals and any index arrays: gathering the pre-scaled rows, adding
    them up at the targets and scaling node n's sum by D(n) is adding up the gathered rows each weighted by
    D(source) · D(target). -/
theorem layer_core (X : FVec Ideal Cert.KernelIdeal.S50000x128 .f32) (Wt : FVec Ideal Cert.KernelIdeal.S128x128 .f32) (D : FVec Ideal Cert.KernelIdeal.S50000 .f32)
    (hD : ∀ n, 0 ≤ D n ∧ D n ≠ ⊤) (s t : IVec Cert.KernelIdeal.S650000 32) (b : FVec Ideal Cert.KernelIdeal.S128 .f32) :
    Cert.KernelIdeal.KTerms.aggregate (Cert.Spec.scaledProd X Wt (shapeCast Cert.KernelIdeal.S50000x1 D Cert.KernelIdeal.Facts₀.shapeCasts_S50000_S50000x1)) s t
        (shapeCast Cert.KernelIdeal.S50000x1 D Cert.KernelIdeal.Facts₀.shapeCasts_S50000_S50000x1) b
      = addf (Host.scatterAdd Cert.ReferenceIdeal.scatter_S50000x128_S650000x1_S650000x128_1_0_0_1
          (broadcastInDim Cert.ReferenceIdeal.S50000x128 ![] Cert.ReferenceIdeal.Facts₀.bcast_S_S50000x128 (constant (F := Ideal) Cert.ReferenceIdeal.S_ .f32 0x00000000#32))
          (broadcastInDim Cert.ReferenceIdeal.S650000x1 ![0] Cert.ReferenceIdeal.Facts₀.bcast_S650000_S650000x1_0 t)
          (mulf (Host.gather Cert.ReferenceIdeal.gather_S50000x128_S650000x1_S650000x128_1_0_n_n_0_1_1128
              (Host.dotGeneral (F := Ideal) Cert.ReferenceIdeal.dot_S50000x128_S128x128_S50000x128_1_0_0_1_n_n none X Wt) (Cert.ReferenceIdeal.RTerms.wrapEdges s))
            (broadcastInDim Cert.ReferenceIdeal.S650000x128 ![0, 1] Cert.ReferenceIdeal.Facts₀.bcast_S650000x1_S650000x128_0_1
              (broadcastInDim Cert.ReferenceIdeal.S650000x1 ![0] Cert.ReferenceIdeal.Facts₀.bcast_S650000_S650000x1_0
                (mulf (Host.gather Cert.ReferenceIdeal.gather_S50000_S650000x1_S650000_n_0_n_n_0_1_1 D (Cert.ReferenceIdeal.RTerms.wrapEdges s))
                  (Host.gather Cert.ReferenceIdeal.gather_S50000_S650000x1_S650000_n_0_n_n_0_1_1 D (Cert.ReferenceIdeal.RTerms.wrapEdges t)))))))
        (broadcastInDim Cert.ReferenceIdeal.S50000x128 ![0, 1] Cert.ReferenceIdeal.Facts₀.bcast_S1x128_S50000x128_0_1
          (broadcastInDim Cert.ReferenceIdeal.S1x128 ![1] Cert.ReferenceIdeal.Facts₀.bcast_S128_S1x128_1 b)) := by
  -- the update array on the weighted side, element by element
  have hupd : mulf (Host.gather Cert.ReferenceIdeal.gather_S50000x128_S650000x1_S650000x128_1_0_n_n_0_1_1128
        (Host.dotGeneral (F := Ideal) Cert.ReferenceIdeal.dot_S50000x128_S128x128_S50000x128_1_0_0_1_n_n none X Wt) (Cert.ReferenceIdeal.RTerms.wrapEdges s))
      (broadcastInDim Cert.ReferenceIdeal.S650000x128 ![0, 1] Cert.ReferenceIdeal.Facts₀.bcast_S650000x1_S650000x128_0_1
        (broadcastInDim Cert.ReferenceIdeal.S650000x1 ![0] Cert.ReferenceIdeal.Facts₀.bcast_S650000_S650000x1_0
          (mulf (Host.gather Cert.ReferenceIdeal.gather_S50000_S650000x1_S650000_n_0_n_n_0_1_1 D (Cert.ReferenceIdeal.RTerms.wrapEdges s))
            (Host.gather Cert.ReferenceIdeal.gather_S50000_S650000x1_S650000_n_0_n_n_0_1_1 D (Cert.ReferenceIdeal.RTerms.wrapEdges t)))))
      = fun u => Host.gather Cert.ReferenceIdeal.gather_S50000x128_S650000x1_S650000x128_1_0_n_n_0_1_1128 (prod128 X Wt) (Cert.ReferenceIdeal.RTerms.wrapEdges s) u
          * (Host.gather Cert.ReferenceIdeal.gather_S50000_S650000x1_S650000_n_0_n_n_0_1_1 D (Cert.ReferenceIdeal.RTerms.wrapEdges s) (ix1 (u 0))
            * Host.gather Cert.ReferenceIdeal.gather_S50000_S650000x1_S650000_n_0_n_n_0_1_1 D (Cert.ReferenceIdeal.RTerms.wrapEdges t) (ix1 (u 0))) := by
    funext u
    obtain ⟨p, c, rfl⟩ : ∃ (p : Fin 650000) (c : Fin 128), u = ix2 p c := ⟨u 0, u 1, eq_ix2 u⟩
    rw [mulf_apply, bcast_colwide_apply, bcast_col_apply, mulf_apply, dot128_eq]
  funext i
  obtain ⟨n, j, rfl⟩ : ∃ (n : Fin 50000) (j : Fin 128), i = ix2 n j := ⟨i 0, i 1, eq_ix2 i⟩
  unfold Cert.KernelIdeal.KTerms.aggregate
  rw [addf_apply, addf_apply, mulf_apply, hupd, scaledProd_eq, bcast_colwide_apply, Cert.LibKeepdims.shapeCast_a_a1_apply,
    bcast_zero_eq]
  rw [scatterAdd_ideal, scatterAdd_ideal, scatterRec_eq, gatherRec_eq, wrapEdges_eq]
  have key := Cert.GraphLayer.scaled_sum_eq_sum_weighted (N := 50000) (C := 128) (R := 650000) (w := 32) (by decide)
    Cert.ReferenceIdeal.scatter_S50000x128_S650000x1_S650000x128_1_0_0_1 rfl rfl rfl rfl
    Cert.ReferenceIdeal.gather_S50000x128_S650000x1_S650000x128_1_0_n_n_0_1_1128 rfl rfl rfl rfl rfl rfl rfl
    Cert.ReferenceIdeal.gather_S50000_S650000x1_S650000_n_0_n_n_0_1_1 rfl rfl rfl rfl rfl rfl rfl
    (prod128 X Wt) D hD (Cert.ReferenceIdeal.RTerms.wrapEdges s)
    (broadcastInDim Cert.ReferenceIdeal.S650000x1 ![0] Cert.ReferenceIdeal.Facts₀.bcast_S650000_S650000x1_0 t) (Cert.ReferenceIdeal.RTerms.wrapEdges t)
    (fun p n h => wrapEdges_toInt t p n h) n j
  rw [key]

/-- THE LAYER as the two programs state it. -/
theorem layer_eq (X : FVec Ideal Cert.KernelIdeal.S50000x128 .f32) (Wt : FVec Ideal Cert.KernelIdeal.S128x128 .f32) (e : IVec Cert.KernelIdeal.S2x600000 32)
    (b : FVec Ideal Cert.KernelIdeal.S128 .f32) :
    Cert.KernelIdeal.KTerms.aggregate (Cert.Spec.scaledProd X Wt (Cert.KernelIdeal.KTerms.invSqrtDegCol e)) (Cert.KernelIdeal.KTerms.srcIdx e) (Cert.KernelIdeal.KTerms.dstIdx e)
        (Cert.KernelIdeal.KTerms.invSqrtDegCol e) b
      = Cert.ReferenceIdeal.RTerms.aggregate (Host.dotGeneral (F := Ideal) Cert.ReferenceIdeal.dot_S50000x128_S128x128_S50000x128_1_0_0_1_n_n none X Wt) e b :=
  layer_core X Wt (Cert.KernelIdeal.KTerms.invSqrtDeg e) (invSqrtDeg_nonneg_ne_top e) (Cert.KernelIdeal.KTerms.srcIdx e) (Cert.KernelIdeal.KTerms.dstIdx e) b

/-! ## The two results -/

/-- THE BRIDGE: for all argument arrays the kernel program's result term is the reference program's. The embedding
    commutes with the gather, each layer with its two ways of normalising, and the clamp is the same clamp. -/
theorem result_eq (a0 : IVec Cert.KernelIdeal.S50000 32) (a1 : IVec Cert.KernelIdeal.S2x600000 32) (a2 : FVec Ideal Cert.KernelIdeal.S50000x256 .f32) (a3 : FVec Ideal Cert.KernelIdeal.S128x256 .f32) (a4 : FVec Ideal Cert.KernelIdeal.S128 .f32) (a5 : FVec Ideal Cert.KernelIdeal.S128x128 .f32) (a6 : FVec Ideal Cert.KernelIdeal.S128 .f32) (a7 : FVec Ideal Cert.KernelIdeal.S128x128 .f32) (a8 : FVec Ideal Cert.KernelIdeal.S128 .f32) :
    Cert.KernelIdeal.KTerms.result a0 a1 a2 a3 a4 a5 a6 a7 a8 = Cert.ReferenceIdeal.RTerms.result a0 a1 a2 a3 a4 a5 a6 a7 a8 := by
  unfold Cert.KernelIdeal.KTerms.result Cert.ReferenceIdeal.RTerms.result
  rw [embed_eq, layer_eq, relu_eq, layer_eq]

end Cert.Bridge

end
-- ==== Proof.lean ====
/-
  A two-layer graph convolution on 50000 nodes and 650000 edges (600000 listed edges and one self-loop per node),
  on a 128-wide embedding of the node tokens: the kernel program against its plain reference, at the exact instance
  (floats are extended reals, every operation the exact one).

  Where the two differ, and why they agree.
  • The reference gathers the 256-wide embedding rows at the node tokens and projects them; the kernel program projects
    the whole table with its first kernel and gathers the 128-wide projected rows at the same (wrapped, clamped) tokens.
    Row r of either is the projection of the table's row at token r.
  • In a layer the reference multiplies the row gathered for edge e by D(source e) · D(target e), D the inverse square
    root of the degree, and adds the rows up at the targets. The kernel program scales row r of the layer's product by
    D(r) inside its kernel, adds the gathered rows up at the targets and multiplies node n's sum by D(n). Every edge
    added up at node n has target n; multiplication is associative; and D(n) is a nonnegative real number whatever the
    degree is (0 where the degree is not positive, else 1/√degree, 0 at +∞), so it distributes over the sum of
    extended reals. No finiteness of the float inputs is used.
  • The clamp below at zero between the layers is applied by the reference to the whole table and by the third kernel
    to the block it loads; the matrix products are the same sums over the contracted index.

  The kernel program's run is read segment by segment (three kernel regions among stretches of host operations) up to
  one term of the nine arguments (KernelRun, Region0–2, KValue over KTerms); the reference's run is its operations'
  composed term (RefRun, RTerms); Bridge proves the two terms equal for all arguments.
-/
import proofs.«102809_j60404420051602_2_alg».proof.Defs
import proofs.«102809_j60404420051602_2_alg».proof.Proof.Gen.Kernel
import proofs.«102809_j60404420051602_2_alg».proof.Proof.Gen.Kernel.Skeleton
import proofs.«102809_j60404420051602_2_alg».proof.Proof.Gen.Kernel.Launch
import proofs.«102809_j60404420051602_2_alg».proof.Proof.Gen.Kernel.Points
import proofs.«102809_j60404420051602_2_alg».proof.Proof.Gen.Kernel.Frame
import proofs.«102809_j60404420051602_2_alg».proof.Proof.Gen.KernelIdeal
import proofs.«102809_j60404420051602_2_alg».proof.Proof.Gen.KernelIdeal.Skeleton
import proofs.«102809_j60404420051602_2_alg».proof.Proof.Gen.KernelIdeal.Launch
import proofs.«102809_j60404420051602_2_alg».proof.Proof.Gen.KernelIdeal.Points
import proofs.«102809_j60404420051602_2_alg».proof.Proof.Gen.KernelIdeal.Frame
import proofs.«102809_j60404420051602_2_alg».proof.Proof.Gen.ReferenceIdeal
import proofs.«102809_j60404420051602_2_alg».proof.Proof.Gen.Pre_finite_inputs
import proofs.«102809_j60404420051602_2_alg».proof.Proof.KernelRun
import proofs.«102809_j60404420051602_2_alg».proof.Proof.KValue
import proofs.«102809_j60404420051602_2_alg».proof.Proof.RefRun
import proofs.«102809_j60404420051602_2_alg».proof.Proof.RTerms
import proofs.«102809_j60404420051602_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result buffer at one function of the arguments, index by index. -/
theorem algebraic : Cert.algebraic_KernelIdeal_ReferenceIdeal := by
  intro m ρ m' ρ' _ hagree
  refine ⟨fun c => Cert.KernelIdeal.KTerms.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.final_result m ρ c), (h c).2⟩)
      (Cert.KernelIdeal.KernelRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.RTerms.res_eq, e0, e1, e2, e3, e4, e5, e6, e7, e8]
    exact (Cert.Bridge.result_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
